-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32 : Shape := ⟨2, ![10000, 32]⟩
abbrev S10000x10000 : Shape := ⟨2, ![10000, 10000]⟩
abbrev S32x128 : Shape := ⟨2, ![32, 128]⟩
abbrev S128x256 : Shape := ⟨2, ![128, 256]⟩
abbrev S256x128 : Shape := ⟨2, ![256, 128]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S128x256 : S_.BroadcastsInDim S128x256 (![] : Fin 0 → Fin S128x256.rank)
  reducesTo_S128x256_S_d0_1 : S128x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S10000x32 .f32) (main_arg1 : FVec F S10000x10000 .f32) (main_arg2 : FVec F S32x128 .f32) (main_arg3 : FVec F S128x256 .f32) (main_arg4 : FVec F S256x128 .f32) : IVec S_ 1 :=
  let main_v0 : FVec F S10000x32 .f32 := Host.absf main_arg0
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S10000x32 : Shape := ⟨2, ![10000, 32]⟩
abbrev S10000x10000 : Shape := ⟨2, ![10000, 10000]⟩
abbrev S32x128 : Shape := ⟨2, ![32, 128]⟩
abbrev S128x256 : Shape := ⟨2, ![128, 256]⟩
abbrev S256x128 : Shape := ⟨2, ![256, 128]⟩
abbrev S10000x128 : Shape := ⟨2, ![10000, 128]⟩
abbrev S200x10000 : Shape := ⟨2, ![200, 10000]⟩
abbrev S200x128 : Shape := ⟨2, ![200, 128]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩
abbrev S128x10000 : Shape := ⟨2, ![128, 10000]⟩

abbrev nBuf : Space → Nat
  | .hbm => 10
  | .vmem => 29
  | .smem => 0
  | _ => 0

abbrev bufTy : (tb : Table) → Fin (tcTables nBuf tb) → BufTy
  | .hbm, ⟨0, _⟩ => ⟨S10000x32, .f32⟩
  | .hbm, ⟨1, _⟩ => ⟨S10000x10000, .f32⟩
  | .hbm, ⟨2, _⟩ => ⟨S32x128, .f32⟩
  | .hbm, ⟨3, _⟩ => ⟨S128x256, .f32⟩
  | .hbm, ⟨4, _⟩ => ⟨S256x128, .f32⟩
  | .hbm, ⟨5, _⟩ => ⟨S10000x128, .f32⟩
  | .hbm, ⟨6, _⟩ => ⟨S10000x10000, .bf16⟩
  | .hbm, ⟨7, _⟩ => ⟨S10000x256, .f32⟩
  | .hbm, ⟨8, _⟩ => ⟨S10000x128, .f32⟩
  | .hbm, ⟨9, _⟩ => ⟨S10000x10000, .f32⟩
  | .local _ .vmem, ⟨0, _⟩ => ⟨S10000x32, .f32⟩
  | .local _ .vmem, ⟨1, _⟩ => ⟨S32x128, .f32⟩
  | .local _ .vmem, ⟨2, _⟩ => ⟨S200x10000, .f32⟩
  | .local _ .vmem, ⟨3, _⟩ => ⟨S200x10000, .f32⟩
  | .local _ .vmem, ⟨4, _⟩ => ⟨S200x128, .f32⟩
  | .local _ .vmem, ⟨5, _⟩ => ⟨S200x128, .f32⟩
  | .local _ .vmem, ⟨6, _⟩ => ⟨S200x10000, .bf16⟩
  | .local _ .vmem, ⟨7, _⟩ => ⟨S200x10000, .bf16⟩
  | .local _ .vmem, ⟨8, _⟩ => ⟨S10000x128, .bf16⟩
  | .local _ .vmem, ⟨9, _⟩ => ⟨S10000x128, .f32⟩
  | .local _ .vmem, ⟨10, _⟩ => ⟨S128x256, .f32⟩
  | .local _ .vmem, ⟨11, _⟩ => ⟨S400x10000, .bf16⟩
  | .local _ .vmem, ⟨12, _⟩ => ⟨S400x10000, .bf16⟩
  | .local _ .vmem, ⟨13, _⟩ => ⟨S400x256, .f32⟩
  | .local _ .vmem, ⟨14, _⟩ => ⟨S400x256, .f32⟩
  | .local _ .vmem, ⟨15, _⟩ => ⟨S10000x256, .bf16⟩
  | .local _ .vmem, ⟨16, _⟩ => ⟨S10000x256, .f32⟩
  | .local _ .vmem, ⟨17, _⟩ => ⟨S256x128, .f32⟩
  | .local _ .vmem, ⟨18, _⟩ => ⟨S400x10000, .bf16⟩
  | .local _ .vmem, ⟨19, _⟩ => ⟨S400x10000, .bf16⟩
  | .local _ .vmem, ⟨20, _⟩ => ⟨S400x128, .f32⟩
  | .local _ .vmem, ⟨21, _⟩ => ⟨S400x128, .f32⟩
  | .local _ .vmem, ⟨22, _⟩ => ⟨S10000x128, .bf16⟩
  | .local _ .vmem, ⟨23, _⟩ => ⟨S400x128, .f32⟩
  | .local _ .vmem, ⟨24, _⟩ => ⟨S400x128, .f32⟩
  | .local _ .vmem, ⟨25, _⟩ => ⟨S10000x128, .f32⟩
  | .local _ .vmem, ⟨26, _⟩ => ⟨S400x10000, .f32⟩
  | .local _ .vmem, ⟨27, _⟩ => ⟨S400x10000, .f32⟩
  | .local _ .vmem, ⟨28, _⟩ => ⟨S128x10000, .bf16⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x10000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x32_S10000x32_0_0 : ∀ a, (![0, 0] : Fin 2 → Nat) a + S10000x32.size a ≤ S10000x32.size a
  h_S10000x32 : 0 < S10000x32.numel
  inb_S32x128_S32x128_0_0 : ∀ a, (![0, 0] : Fin 2 → Nat) a + S32x128.size a ≤ S32x128.size a
  h_S32x128 : 0 < S32x128.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  inb_S200x128_S200x128_0_0 : ∀ a, (![0, 0] : Fin 2 → Nat) a + S200x128.size a ≤ S200x128.size a
  h_S200x128 : 0 < S200x128.numel
  inb_S128x256_S128x256_0_0 : ∀ a, (![0, 0] : Fin 2 → Nat) a + S128x256.size a ≤ S128x256.size a
  h_S128x256 : 0 < S128x256.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x256_S400x256_0_0 : ∀ a, (![0, 0] : Fin 2 → Nat) a + S400x256.size a ≤ S400x256.size a
  h_S400x256 : 0 < S400x256.numel
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  transposes_S10000x128_p1_0_S128x10000 : S10000x128.Transposes [1, 0] S128x10000
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  packedbf16_S128x10000_S128x10000_0_0 : (Rect.unit (s := S128x10000) ![0, 0] S128x10000.size inb_S128x10000_S128x10000_0_0).PackedRows (EltTy.packing .bf16)
  shapeCasts_S400x128_S400x128 : S400x128.ShapeCasts S400x128
  dot_S10000x32_S32x128_S10000x128_1_0_0_1_n_n_wf : DotDims.WF S10000x32 S32x128 S10000x128 [1] [0] [0] [1] [] []
  dot_S200x10000_S10000x128_S200x128_1_0_0_1_n_n_wf : DotDims.WF S200x10000 S10000x128 S200x128 [1] [0] [0] [1] [] []
  dot_S10000x128_S128x256_S10000x256_1_0_0_1_n_n_wf : DotDims.WF S10000x128 S128x256 S10000x256 [1] [0] [0] [1] [] []
  dot_S400x10000_S10000x256_S400x256_1_0_0_1_n_n_wf : DotDims.WF S400x10000 S10000x256 S400x256 [1] [0] [0] [1] [] []
  dot_S10000x256_S256x128_S10000x128_1_0_0_1_n_n_wf : DotDims.WF S10000x256 S256x128 S10000x128 [1] [0] [0] [1] [] []
  dot_S400x10000_S10000x128_S400x128_1_0_0_1_n_n_wf : DotDims.WF S400x10000 S10000x128 S400x128 [1] [0] [0] [1] [] []
  dot_S400x128_S128x10000_S400x10000_1_0_0_1_n_n_wf : DotDims.WF S400x128 S128x10000 S400x10000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S10000x32.size a
  hwx0_0 : ∀ i : grid0.Coords, EltTy.bits .f32 = 32 ∨ (Rect.block (s := S10000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .bf16 = 32 ∨ (Rect.block (s := S10000x10000) S200x10000.size (cc0_transform_4 i) (hinb0_4 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .f32 = 32 ∨ (Rect.block (s := S10000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .bf16 = 32 ∨ (Rect.block (s := S10000x10000) S400x10000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S10000x256.size a
  hwx2_0 : ∀ i : grid2.Coords, EltTy.bits .f32 = 32 ∨ (Rect.block (s := S10000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x10000.size a ≤ S10000x10000.size a
  hwx2_2 : ∀ i : grid2.Coords, EltTy.bits .bf16 = 32 ∨ (Rect.block (s := S10000x10000) S400x10000.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x128.size a ≤ S10000x128.size a
  hwx3_0 : ∀ i : grid3.Coords, EltTy.bits .f32 = 32 ∨ (Rect.block (s := S10000x128) S400x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .f32 = 32 ∨ (Rect.block (s := S10000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x10000_S400x10000_1_0_0_1_n_n : DotDims S400x128 S128x10000 S400x10000 where
  lhsContracting := [1]
  rhsContracting := [0]
  lhsNonContracting := [0]
  rhsNonContracting := [1]
  lhsBatch := []
  rhsBatch := []
  wf := dot_S400x128_S128x10000_S400x10000_1_0_0_1_n_n_wf

abbrev win0_0 : Pipeline.Window sig grid0 :=
  Pipeline.Window.ofSpec (Memref.whole main_arg0) S10000x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S200x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S200x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S10000x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S400x10000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x32 : Shape := ⟨2, ![10000, 32]⟩
abbrev S10000x10000 : Shape := ⟨2, ![10000, 10000]⟩
abbrev S32x128 : Shape := ⟨2, ![32, 128]⟩
abbrev S128x256 : Shape := ⟨2, ![128, 256]⟩
abbrev S256x128 : Shape := ⟨2, ![256, 128]⟩
abbrev S10000x128 : Shape := ⟨2, ![10000, 128]⟩
abbrev S10000x256 : Shape := ⟨2, ![10000, 256]⟩
abbrev S128x10000 : Shape := ⟨2, ![128, 10000]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S10000x32, .f32⟩
  | .hbm, ⟨1, _⟩ => ⟨S10000x10000, .f32⟩
  | .hbm, ⟨2, _⟩ => ⟨S32x128, .f32⟩
  | .hbm, ⟨3, _⟩ => ⟨S128x256, .f32⟩
  | .hbm, ⟨4, _⟩ => ⟨S256x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x256, .f32⟩
  | .hbm, ⟨9, _⟩ => ⟨S10000x256, .f32⟩
  | .hbm, ⟨10, _⟩ => ⟨S10000x256, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S128x10000, .f32⟩
  | .hbm, ⟨15, _⟩ => ⟨S10000x10000, .f32⟩
  | .hbm, ⟨16, _⟩ => ⟨S10000x10000, .f32⟩
  | .hbm, ⟨17, _⟩ => ⟨S10000x10000, .f32⟩
  | .hbm, ⟨18, _⟩ => ⟨S_, .f32⟩
  | .hbm, ⟨19, _⟩ => ⟨S10000x10000, .f32⟩
  | .hbm, ⟨20, _⟩ => ⟨S10000x10000, .f32⟩
  | .hbm, ⟨21, _⟩ => ⟨S_, .f32⟩
  | .hbm, ⟨22, _⟩ => ⟨S10000x10000, .f32⟩
  | .hbm, ⟨23, _⟩ => ⟨S10000x10000, .f32⟩
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S10000x128_S128x10000_1_0 : S10000x128.Transposes [1, 0] S128x10000
  bcast_S_S10000x10000 : S_.BroadcastsInDim S10000x10000 (![] : Fin 0 → Fin S10000x10000.rank)
  dot_S10000x32_S32x128_S10000x128_1_0_0_1_n_n_wf : DotDims.WF S10000x32 S32x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x128_S128x10000_S10000x10000_1_0_0_1_n_n_wf : DotDims.WF S10000x128 S128x10000 S10000x10000 [1] [0] [0] [1] [] []

variable [Facts₀]

def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.KRegion0.lean ====
/-
  Call 0 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result — and, in this first call, the adjacency block
  again in the narrower float format, for the later calls to read.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.Kernel.Launch
import proofs.«101579_g4002909520353_cont_8to1_b_697_5_alg».proof.Proof.Gen.Kernel.Skeleton
import proofs.«101579_g4002909520353_cont_8to1_b_697_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev r0_0 : Rect S10000x32 := Rect.unit (s := S10000x32) ![0, 0] S10000x32.size inb_S10000x32_S10000x32_0_0
abbrev r0_1 : Rect S32x128 := Rect.unit (s := S32x128) ![0, 0] S32x128.size inb_S32x128_S32x128_0_0
abbrev r0_2 : Rect S200x10000 := Rect.unit (s := S200x10000) ![0, 0] S200x10000.size inb_S200x10000_S200x10000_0_0
abbrev r0_3 : Rect S200x128 := Rect.unit (s := S200x128) ![0, 0] S200x128.size inb_S200x128_S200x128_0_0
abbrev r0_4 : Rect S200x10000 := Rect.unit (s := S200x10000) ![0, 0] S200x10000.size inb_S200x10000_S200x10000_0_0
abbrev r0_s : Rect S10000x128 := Rect.unit (s := S10000x128) ![0, 0] S10000x128.size inb_S10000x128_S10000x128_0_0

/-- What the first point stores into the scratch buffer, which every later point reads back. -/
def scr0 (x0 : Vec F S10000x32 .f32) (x1 : Vec F S32x128 .f32) : Vec F S10000x128 .bf16 :=
  View.canon [⟨r0_s, k0_pay1 (View.ld x0 r0_0) (View.ld x1 r0_1)⟩]
/-- What a point stores into output window 3's buffer, from the blocks it loaded and the scratch. -/
def out0_3 (x2 : Vec F S200x10000 .f32) (s : Vec F S10000x128 .bf16) : Vec F S200x128 .f32 :=
  View.canon [⟨r0_3, k0_pay3 (View.ld x2 r0_2) (View.ld s r0_s)⟩]
/-- What a point stores into output window 4's buffer, from the blocks it loaded and the scratch. -/
def out0_4 (x2 : Vec F S200x10000 .f32) : Vec F S200x10000 .bf16 :=
  View.canon [⟨r0_4, k0_pay2 (View.ld x2 r0_2)⟩]

theorem cover0_s (p0 : Vec F S10000x128 .bf16) (y : S10000x128.Idx) :
    ∃ pc ∈ ([⟨r0_s, p0⟩] : List (View.Piece (Elt F) S10000x128 .bf16)), y ∈ pc.1.set :=
  View.cover_of_tiled [⟨r0_s, p0⟩] S10000x128.size (by rfl) y
theorem cover0_3 (p0 : Vec F S200x128 .f32) (y : S200x128.Idx) :
    ∃ pc ∈ ([⟨r0_3, p0⟩] : List (View.Piece (Elt F) S200x128 .f32)), y ∈ pc.1.set :=
  View.cover_of_tiled [⟨r0_3, p0⟩] S200x128.size (by rfl) y
theorem cover0_4 (p0 : Vec F S200x10000 .bf16) (y : S200x10000.Idx) :
    ∃ pc ∈ ([⟨r0_4, p0⟩] : List (View.Piece (Elt F) S200x10000 .bf16)), y ∈ pc.1.set :=
  View.cover_of_tiled [⟨r0_4, p0⟩] S200x10000.size (by rfl) y

set_option maxHeartbeats 1000000 in
/-- The body at the grid's first point: it fills the scratch, then computes from it. -/
theorem sound_first0 (c : Dev nD) (E : Set ℕ) (i : grid0.Coords) (hc : cond0 i)
    (a0 : Memref sig .tc .vmem S10000x32 .f32) (ha0 : a0.IsWhole) (a1 : Memref sig .tc .vmem S32x128 .f32) (ha1 : a1.IsWhole) (a2 : Memref sig .tc .vmem S200x10000 .f32) (ha2 : a2.IsWhole) (a3 : Memref sig .tc .vmem S200x128 .f32) (ha3 : a3.IsWhole) (a4 : Memref sig .tc .vmem S200x10000 .bf16) (ha4 : a4.IsWhole) (asc : Memref sig .tc .vmem S10000x128 .bf16) (hasc : asc.IsWhole)
    (x0 : Vec F S10000x32 .f32) (x1 : Vec F S32x128 .f32) (x2 : Vec F S200x10000 .f32) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out0_3 x2 (scr0 x0 x1))
            ∗ owns (c : Thread nD τ) a4 fullShare (out0_4 x2)
            ∗ owns (c : Thread nD τ) asc fullShare (scr0 x0 x1)) -∗ K ⟨⟩))
      ⊢ wp frame (wpE (defs₀ (F := F)) Variants.none c none) E (cc0__layer_cast_body i a0 ha0 a1 ha1 a2 ha2 a3 ha3 a4 ha4 asc hasc) K := by
  simp only [cc0__layer_cast_body_eq_skeleton]; unfold cc0__layer_cast_body_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover0_s _)]
    exact View.read_writes_eq_canon _ _ _ (cover0_3 _)
  isplitl [H4]
  · iexists _; isplitr
    swap; · iexact H4
    ipureintro
    try sl_unfold_run_names
    exact View.read_writes_eq_canon _ _ _ (cover0_4 _)
  iexists _; isplitr
  swap; · iexact HS
  ipureintro
  try sl_unfold_run_names
  exact View.read_writes_eq_canon _ _ _ (cover0_s _)

set_option maxHeartbeats 1000000 in
/-- The body at a later point: it reads the scratch as the first point left it. -/
theorem sound_later0 (c : Dev nD) (E : Set ℕ) (i : grid0.Coords) (hc : ¬cond0 i)
    (a0 : Memref sig .tc .vmem S10000x32 .f32) (ha0 : a0.IsWhole) (a1 : Memref sig .tc .vmem S32x128 .f32) (ha1 : a1.IsWhole) (a2 : Memref sig .tc .vmem S200x10000 .f32) (ha2 : a2.IsWhole) (a3 : Memref sig .tc .vmem S200x128 .f32) (ha3 : a3.IsWhole) (a4 : Memref sig .tc .vmem S200x10000 .bf16) (ha4 : a4.IsWhole) (asc : Memref sig .tc .vmem S10000x128 .bf16) (hasc : asc.IsWhole)
    (x0 : Vec F S10000x32 .f32) (x1 : Vec F S32x128 .f32) (x2 : Vec F S200x10000 .f32) (s : Vec F S10000x128 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out0_3 x2 s)
            ∗ owns (c : Thread nD τ) a4 fullShare (out0_4 x2)
            ∗ owns (c : Thread nD τ) asc fullShare s) -∗ K ⟨⟩))
      ⊢ wp frame (wpE (defs₀ (F := F)) Variants.none c none) E (cc0__layer_cast_body i a0 ha0 a1 ha1 a2 ha2 a3 ha3 a4 ha4 asc hasc) K := by
  simp only [cc0__layer_cast_body_eq_skeleton]; unfold cc0__layer_cast_body_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover0_3 _)
  isplitl [H4]
  · iexists _; isplitr
    swap; · iexact H4
    ipureintro
    try sl_unfold_run_names
    exact View.read_writes_eq_canon _ _ _ (cover0_4 _)
  iexists fs; isplitr; · ipureintro; rfl
  iexact HS

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t0_0 : Fin cfg0.N := ⟨0, by decide⟩
/-- The scratch operand: a whole scoped buffer of the kernel's own, passed beside the windows. -/
abbrev scM0 : Memref sig .tc .vmem S10000x128 .bf16 := Memref.whole cc0_scratch0
/-- What the scratch holds from the first point on: computed from the whole-array windows' blocks there. -/
def S0 (c : Dev nD) : Vec F S10000x128 .bf16 := scr0 (iblk0 V c 0 t0_0) (iblk0 V c 1 t0_0)

/-- The class's invariant with the scratch operand split off the other scoped buffers. -/
theorem PhiA0_eq (c : Dev nD) :
    (Pipeline.ΦA spec0 c : sProp 𝕄)
      = iprop(((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL_singleton]
  rfl

/-- The region invariant before position `n`: before the first point the class's (the scratch at anything); afterwards
    the scratch at what the first point stored, the other scoped buffers at anything, the generator register at some state. -/
def Phi0 (c : Dev nD) : ℕ → sProp 𝕄
  | 0 => Pipeline.ΦA spec0 c
  | _ + 1 => iprop((owns (c : Thread nD τ) scM0 fullShare (S0 V c) ∗ Pipeline.scopedRestBut (Ix := Unit) (Name := ℕ) (U := UR sig nD τ) (Lvl := ℕ) (Val := Elt F) spec0 c [cc0_scratch0]) ∗ (∃ r, prngReg c r))

theorem Phi0_pos (c : Dev nD) (n : ℕ) (hn : n ≠ 0) :
    Phi0 V c n = iprop((owns (c : Thread nD τ) scM0 fullShare (S0 V c) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hn
  | succ n => rfl

/-- The proof data of pipeline 0 on core `c`: the arrays as the region finds them; after the body at point `t` each
    input's buffer at its block and each output's at what the body stores, computed from the blocks and the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 2 t) (S0 V c)
    | ⟨4, _⟩ => out0_4 (iblk0 V c 2 t)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 2 t) (S0 V c) := by dsimp only [dat0]
theorem after0_4 (c : Dev nD) (t : Fin cfg0.N) : (dat0 V c).after 4 t = out0_4 (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: at the first the scratch is at anything and the body fills it; at a later one the scratch
    holds what the first point stored, and is handed back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl, Phi0_pos V c (t.val + 1) (Nat.succ_ne_zero _),
    show (dat0 V c).Φ t.castSucc = Phi0 V c t.val from rfl,
    after0_0, after0_1, after0_2, after0_3, after0_4]
  by_cases hz : t.val = 0
  · obtain rfl : t = t0_0 := Fin.ext hz
    rw [show Phi0 V c (t0_0).val = Pipeline.ΦA spec0 c from rfl, PhiA0_eq]
    iintro ⟨⟨⟨HS, HR⟩, Hg⟩, Ho, ⟨%d0, H0⟩, ⟨%d1, H1⟩, ⟨%d2, H2⟩, ⟨%d3, H3⟩, ⟨%d4, H4⟩⟩
    iapply (sound_first0 c Set.univ _ ((hcond0 t0_0).mpr rfl) _ _ _ _ _ _ _ _ _ _ _ _ (iblk0 V c 0 t0_0) (iblk0 V c 1 t0_0) (iblk0 V c 2 t0_0) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨⟨HS, HR⟩, Hg⟩, Ho, ⟨%d0, H0⟩, ⟨%d1, H1⟩, ⟨%d2, H2⟩, ⟨%d3, H3⟩, ⟨%d4, H4⟩⟩
    iapply (sound_later0 c Set.univ _ (fun h => hz ((hcond0 t).mp h)) _ _ _ _ _ _ _ _ _ _ _ _ (iblk0 V c 0 t) (iblk0 V c 1 t) (iblk0 V c 2 t) (S0 V c) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c cfg0.N from rfl, Phi0_pos V c cfg0.N (by decide), PhiA0_eq]
  iintro ⟨⟨HS, HR⟩, Hg⟩
  isplitl [HS HR]
  · isplitl [HS]; · iexists _; iexact HS
    iexact HR
  iexact Hg

end Region0

end Cert.Kernel.Gen.Hand

end
-- ==== Proof.KRegion1.lean ====
/-
  Call 1 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.Kernel.Launch
import proofs.«101579_g4002909520353_cont_8to1_b_697_5_alg».proof.Proof.Gen.Kernel.Skeleton
import proofs.«101579_g4002909520353_cont_8to1_b_697_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev r1_0 : Rect S10000x128 := Rect.unit (s := S10000x128) ![0, 0] S10000x128.size inb_S10000x128_S10000x128_0_0
abbrev r1_1 : Rect S128x256 := Rect.unit (s := S128x256) ![0, 0] S128x256.size inb_S128x256_S128x256_0_0
abbrev r1_2 : Rect S400x10000 := Rect.unit (s := S400x10000) ![0, 0] S400x10000.size inb_S400x10000_S400x10000_0_0
abbrev r1_3 : Rect S400x256 := Rect.unit (s := S400x256) ![0, 0] S400x256.size inb_S400x256_S400x256_0_0
abbrev r1_s : Rect S10000x256 := Rect.unit (s := S10000x256) ![0, 0] S10000x256.size inb_S10000x256_S10000x256_0_0

/-- What the first point stores into the scratch buffer, which every later point reads back. -/
def scr1 (x0 : Vec F S10000x128 .f32) (x1 : Vec F S128x256 .f32) : Vec F S10000x256 .bf16 :=
  View.canon [⟨r1_s, k1_pay1 (View.ld x0 r1_0) (View.ld x1 r1_1)⟩]
/-- What a point stores into output window 3's buffer, from the blocks it loaded and the scratch. -/
def out1_3 (x2 : Vec F S400x10000 .bf16) (s : Vec F S10000x256 .bf16) : Vec F S400x256 .f32 :=
  View.canon [⟨r1_3, k1_pay2 (View.ld x2 r1_2) (View.ld s r1_s)⟩]

theorem cover1_s (p0 : Vec F S10000x256 .bf16) (y : S10000x256.Idx) :
    ∃ pc ∈ ([⟨r1_s, p0⟩] : List (View.Piece (Elt F) S10000x256 .bf16)), y ∈ pc.1.set :=
  View.cover_of_tiled [⟨r1_s, p0⟩] S10000x256.size (by rfl) y
theorem cover1_3 (p0 : Vec F S400x256 .f32) (y : S400x256.Idx) :
    ∃ pc ∈ ([⟨r1_3, p0⟩] : List (View.Piece (Elt F) S400x256 .f32)), y ∈ pc.1.set :=
  View.cover_of_tiled [⟨r1_3, p0⟩] S400x256.size (by rfl) y

set_option maxHeartbeats 1000000 in
/-- The body at the grid's first point: it fills the scratch, then computes from it. -/
theorem sound_first1 (c : Dev nD) (E : Set ℕ) (i : grid1.Coords) (hc : cond1 i)
    (a0 : Memref sig .tc .vmem S10000x128 .f32) (ha0 : a0.IsWhole) (a1 : Memref sig .tc .vmem S128x256 .f32) (ha1 : a1.IsWhole) (a2 : Memref sig .tc .vmem S400x10000 .bf16) (ha2 : a2.IsWhole) (a3 : Memref sig .tc .vmem S400x256 .f32) (ha3 : a3.IsWhole) (asc : Memref sig .tc .vmem S10000x256 .bf16) (hasc : asc.IsWhole)
    (x0 : Vec F S10000x128 .f32) (x1 : Vec F S128x256 .f32) (x2 : Vec F S400x10000 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out1_3 x2 (scr1 x0 x1))
            ∗ owns (c : Thread nD τ) asc fullShare (scr1 x0 x1)) -∗ K ⟨⟩))
      ⊢ wp frame (wpE (defs₀ (F := F)) Variants.none c none) E (cc1__layer_body i a0 ha0 a1 ha1 a2 ha2 a3 ha3 asc hasc) K := by
  simp only [cc1__layer_body_eq_skeleton]; unfold cc1__layer_body_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover1_s _)]
    exact View.read_writes_eq_canon _ _ _ (cover1_3 _)
  iexists _; isplitr
  swap; · iexact HS
  ipureintro
  try sl_unfold_run_names
  exact View.read_writes_eq_canon _ _ _ (cover1_s _)

set_option maxHeartbeats 1000000 in
/-- The body at a later point: it reads the scratch as the first point left it. -/
theorem sound_later1 (c : Dev nD) (E : Set ℕ) (i : grid1.Coords) (hc : ¬cond1 i)
    (a0 : Memref sig .tc .vmem S10000x128 .f32) (ha0 : a0.IsWhole) (a1 : Memref sig .tc .vmem S128x256 .f32) (ha1 : a1.IsWhole) (a2 : Memref sig .tc .vmem S400x10000 .bf16) (ha2 : a2.IsWhole) (a3 : Memref sig .tc .vmem S400x256 .f32) (ha3 : a3.IsWhole) (asc : Memref sig .tc .vmem S10000x256 .bf16) (hasc : asc.IsWhole)
    (x0 : Vec F S10000x128 .f32) (x1 : Vec F S128x256 .f32) (x2 : Vec F S400x10000 .bf16) (s : Vec F S10000x256 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out1_3 x2 s)
            ∗ owns (c : Thread nD τ) asc fullShare s) -∗ K ⟨⟩))
      ⊢ wp frame (wpE (defs₀ (F := F)) Variants.none c none) E (cc1__layer_body i a0 ha0 a1 ha1 a2 ha2 a3 ha3 asc hasc) K := by
  simp only [cc1__layer_body_eq_skeleton]; unfold cc1__layer_body_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover1_3 _)
  iexists fs; isplitr; · ipureintro; rfl
  iexact HS

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The grid's first point. -/
abbrev t0_1 : Fin cfg1.N := ⟨0, by decide⟩
/-- The scratch operand: a whole scoped buffer of the kernel's own, passed beside the windows. -/
abbrev scM1 : Memref sig .tc .vmem S10000x256 .bf16 := Memref.whole cc1_scratch0
/-- What the scratch holds from the first point on: computed from the whole-array windows' blocks there. -/
def S1 (c : Dev nD) : Vec F S10000x256 .bf16 := scr1 (iblk1 V c 0 t0_1) (iblk1 V c 1 t0_1)

/-- The class's invariant with the scratch operand split off the other scoped buffers. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL_singleton]
  rfl

/-- The region invariant before position `n`: before the first point the class's (the scratch at anything); afterwards
    the scratch at what the first point stored, the other scoped buffers at anything, the generator register at some state. -/
def Phi1 (c : Dev nD) : ℕ → sProp 𝕄
  | 0 => Pipeline.ΦA spec1 c
  | _ + 1 => iprop((owns (c : Thread nD τ) scM1 fullShare (S1 V c) ∗ Pipeline.scopedRestBut (Ix := Unit) (Name := ℕ) (U := UR sig nD τ) (Lvl := ℕ) (Val := Elt F) spec1 c [cc1_scratch0]) ∗ (∃ r, prngReg c r))

theorem Phi1_pos (c : Dev nD) (n : ℕ) (hn : n ≠ 0) :
    Phi1 V c n = iprop((owns (c : Thread nD τ) scM1 fullShare (S1 V c) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn
  | succ n => rfl

/-- The proof data of pipeline 1 on core `c`: the arrays as the region finds them; after the body at point `t` each
    input's buffer at its block and each output's at what the body stores, computed from the blocks and the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 2 t) (S1 V c)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 2 t) (S1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: at the first the scratch is at anything and the body fills it; at a later one the scratch
    holds what the first point stored, and is handed back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl, Phi1_pos V c (t.val + 1) (Nat.succ_ne_zero _),
    show (dat1 V c).Φ t.castSucc = Phi1 V c t.val from rfl,
    after1_0, after1_1, after1_2, after1_3]
  by_cases hz : t.val = 0
  · obtain rfl : t = t0_1 := Fin.ext hz
    rw [show Phi1 V c (t0_1).val = Pipeline.ΦA spec1 c from rfl, PhiA1_eq]
    iintro ⟨⟨⟨HS, HR⟩, Hg⟩, Ho, ⟨%d0, H0⟩, ⟨%d1, H1⟩, ⟨%d2, H2⟩, ⟨%d3, H3⟩⟩
    iapply (sound_first1 c Set.univ _ ((hcond1 t0_1).mpr rfl) _ _ _ _ _ _ _ _ _ _ (iblk1 V c 0 t0_1) (iblk1 V c 1 t0_1) (iblk1 V c 2 t0_1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Phi1_pos V c t.val hz]
    iintro ⟨⟨⟨HS, HR⟩, Hg⟩, Ho, ⟨%d0, H0⟩, ⟨%d1, H1⟩, ⟨%d2, H2⟩, ⟨%d3, H3⟩⟩
    iapply (sound_later1 c Set.univ _ (fun h => hz ((hcond1 t).mp h)) _ _ _ _ _ _ _ _ _ _ (iblk1 V c 0 t) (iblk1 V c 1 t) (iblk1 V c 2 t) (S1 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = Phi1 V c cfg1.N from rfl, Phi1_pos V c cfg1.N (by decide), PhiA1_eq]
  iintro ⟨⟨HS, HR⟩, Hg⟩
  isplitl [HS HR]
  · isplitl [HS]; · iexists _; iexact HS
    iexact HR
  iexact Hg

end Region1

end Cert.Kernel.Gen.Hand

end
-- ==== Proof.KRegion2.lean ====
/-
  Call 2 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.Kernel.Launch
import proofs.«101579_g4002909520353_cont_8to1_b_697_5_alg».proof.Proof.Gen.Kernel.Skeleton
import proofs.«101579_g4002909520353_cont_8to1_b_697_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

abbrev r2_0 : Rect S10000x256 := Rect.unit (s := S10000x256) ![0, 0] S10000x256.size inb_S10000x256_S10000x256_0_0
abbrev r2_1 : Rect S256x128 := Rect.unit (s := S256x128) ![0, 0] S256x128.size inb_S256x128_S256x128_0_0
abbrev r2_2 : Rect S400x10000 := Rect.unit (s := S400x10000) ![0, 0] S400x10000.size inb_S400x10000_S400x10000_0_0
abbrev r2_3 : Rect S400x128 := Rect.unit (s := S400x128) ![0, 0] S400x128.size inb_S400x128_S400x128_0_0
abbrev r2_s : Rect S10000x128 := Rect.unit (s := S10000x128) ![0, 0] S10000x128.size inb_S10000x128_S10000x128_0_0

/-- What the first point stores into the scratch buffer, which every later point reads back. -/
def scr2 (x0 : Vec F S10000x256 .f32) (x1 : Vec F S256x128 .f32) : Vec F S10000x128 .bf16 :=
  View.canon [⟨r2_s, k2_pay1 (View.ld x0 r2_0) (View.ld x1 r2_1)⟩]
/-- What a point stores into output window 3's buffer, from the blocks it loaded and the scratch. -/
def out2_3 (x2 : Vec F S400x10000 .bf16) (s : Vec F S10000x128 .bf16) : Vec F S400x128 .f32 :=
  View.canon [⟨r2_3, k2_pay2 (View.ld x2 r2_2) (View.ld s r2_s)⟩]

theorem cover2_s (p0 : Vec F S10000x128 .bf16) (y : S10000x128.Idx) :
    ∃ pc ∈ ([⟨r2_s, p0⟩] : List (View.Piece (Elt F) S10000x128 .bf16)), y ∈ pc.1.set :=
  View.cover_of_tiled [⟨r2_s, p0⟩] S10000x128.size (by rfl) y
theorem cover2_3 (p0 : Vec F S400x128 .f32) (y : S400x128.Idx) :
    ∃ pc ∈ ([⟨r2_3, p0⟩] : List (View.Piece (Elt F) S400x128 .f32)), y ∈ pc.1.set :=
  View.cover_of_tiled [⟨r2_3, p0⟩] S400x128.size (by rfl) y

set_option maxHeartbeats 1000000 in
/-- The body at the grid's first point: it fills the scratch, then computes from it. -/
theorem sound_first2 (c : Dev nD) (E : Set ℕ) (i : grid2.Coords) (hc : cond2 i)
    (a0 : Memref sig .tc .vmem S10000x256 .f32) (ha0 : a0.IsWhole) (a1 : Memref sig .tc .vmem S256x128 .f32) (ha1 : a1.IsWhole) (a2 : Memref sig .tc .vmem S400x10000 .bf16) (ha2 : a2.IsWhole) (a3 : Memref sig .tc .vmem S400x128 .f32) (ha3 : a3.IsWhole) (asc : Memref sig .tc .vmem S10000x128 .bf16) (hasc : asc.IsWhole)
    (x0 : Vec F S10000x256 .f32) (x1 : Vec F S256x128 .f32) (x2 : Vec F S400x10000 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out2_3 x2 (scr2 x0 x1))
            ∗ owns (c : Thread nD τ) asc fullShare (scr2 x0 x1)) -∗ K ⟨⟩))
      ⊢ wp frame (wpE (defs₀ (F := F)) Variants.none c none) E (cc2__layer_body i a0 ha0 a1 ha1 a2 ha2 a3 ha3 asc hasc) K := by
  simp only [cc2__layer_body_eq_skeleton]; unfold cc2__layer_body_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover2_s _)]
    exact View.read_writes_eq_canon _ _ _ (cover2_3 _)
  iexists _; isplitr
  swap; · iexact HS
  ipureintro
  try sl_unfold_run_names
  exact View.read_writes_eq_canon _ _ _ (cover2_s _)

set_option maxHeartbeats 1000000 in
/-- The body at a later point: it reads the scratch as the first point left it. -/
theorem sound_later2 (c : Dev nD) (E : Set ℕ) (i : grid2.Coords) (hc : ¬cond2 i)
    (a0 : Memref sig .tc .vmem S10000x256 .f32) (ha0 : a0.IsWhole) (a1 : Memref sig .tc .vmem S256x128 .f32) (ha1 : a1.IsWhole) (a2 : Memref sig .tc .vmem S400x10000 .bf16) (ha2 : a2.IsWhole) (a3 : Memref sig .tc .vmem S400x128 .f32) (ha3 : a3.IsWhole) (asc : Memref sig .tc .vmem S10000x128 .bf16) (hasc : asc.IsWhole)
    (x0 : Vec F S10000x256 .f32) (x1 : Vec F S256x128 .f32) (x2 : Vec F S400x10000 .bf16) (s : Vec F S10000x128 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out2_3 x2 s)
            ∗ owns (c : Thread nD τ) asc fullShare s) -∗ K ⟨⟩))
      ⊢ wp frame (wpE (defs₀ (F := F)) Variants.none c none) E (cc2__layer_body i a0 ha0 a1 ha1 a2 ha2 a3 ha3 asc hasc) K := by
  simp only [cc2__layer_body_eq_skeleton]; unfold cc2__layer_body_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover2_3 _)
  iexists fs; isplitr; · ipureintro; rfl
  iexact HS

section Region2
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The grid's first point. -/
abbrev t0_2 : Fin cfg2.N := ⟨0, by decide⟩
/-- The scratch operand: a whole scoped buffer of the kernel's own, passed beside the windows. -/
abbrev scM2 : Memref sig .tc .vmem S10000x128 .bf16 := Memref.whole cc2_scratch0
/-- What the scratch holds from the first point on: computed from the whole-array windows' blocks there. -/
def S2 (c : Dev nD) : Vec F S10000x128 .bf16 := scr2 (iblk2 V c 0 t0_2) (iblk2 V c 1 t0_2)

/-- The class's invariant with the scratch operand split off the other scoped buffers. -/
theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL_singleton]
  rfl

/-- The region invariant before position `n`: before the first point the class's (the scratch at anything); afterwards
    the scratch at what the first point stored, the other scoped buffers at anything, the generator register at some state. -/
def Phi2 (c : Dev nD) : ℕ → sProp 𝕄
  | 0 => Pipeline.ΦA spec2 c
  | _ + 1 => iprop((owns (c : Thread nD τ) scM2 fullShare (S2 V c) ∗ Pipeline.scopedRestBut (Ix := Unit) (Name := ℕ) (U := UR sig nD τ) (Lvl := ℕ) (Val := Elt F) spec2 c [cc2_scratch0]) ∗ (∃ r, prngReg c r))

theorem Phi2_pos (c : Dev nD) (n : ℕ) (hn : n ≠ 0) :
    Phi2 V c n = iprop((owns (c : Thread nD τ) scM2 fullShare (S2 V c) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn
  | succ n => rfl

/-- The proof data of pipeline 2 on core `c`: the arrays as the region finds them; after the body at point `t` each
    input's buffer at its block and each output's at what the body stores, computed from the blocks and the scratch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 2 t) (S2 V c)
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 2 t) (S2 V c) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: at the first the scratch is at anything and the body fills it; at a later one the scratch
    holds what the first point stored, and is handed back unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl, Phi2_pos V c (t.val + 1) (Nat.succ_ne_zero _),
    show (dat2 V c).Φ t.castSucc = Phi2 V c t.val from rfl,
    after2_0, after2_1, after2_2, after2_3]
  by_cases hz : t.val = 0
  · obtain rfl : t = t0_2 := Fin.ext hz
    rw [show Phi2 V c (t0_2).val = Pipeline.ΦA spec2 c from rfl, PhiA2_eq]
    iintro ⟨⟨⟨HS, HR⟩, Hg⟩, Ho, ⟨%d0, H0⟩, ⟨%d1, H1⟩, ⟨%d2, H2⟩, ⟨%d3, H3⟩⟩
    iapply (sound_first2 c Set.univ _ ((hcond2 t0_2).mpr rfl) _ _ _ _ _ _ _ _ _ _ (iblk2 V c 0 t0_2) (iblk2 V c 1 t0_2) (iblk2 V c 2 t0_2) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Phi2_pos V c t.val hz]
    iintro ⟨⟨⟨HS, HR⟩, Hg⟩, Ho, ⟨%d0, H0⟩, ⟨%d1, H1⟩, ⟨%d2, H2⟩, ⟨%d3, H3⟩⟩
    iapply (sound_later2 c Set.univ _ (fun h => hz ((hcond2 t).mp h)) _ _ _ _ _ _ _ _ _ _ (iblk2 V c 0 t) (iblk2 V c 1 t) (iblk2 V c 2 t) (S2 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = Phi2 V c cfg2.N from rfl, Phi2_pos V c cfg2.N (by decide), PhiA2_eq]
  iintro ⟨⟨HS, HR⟩, Hg⟩
  isplitl [HS HR]
  · isplitl [HS]; · iexists _; iexact HS
    iexact HR
  iexact Hg

end Region2

end Cert.Kernel.Gen.Hand

end
-- ==== Proof.KRegion3.lean ====
/-
  Call 3 of the four: the Gram matrix of the decoder's output z through the logistic function, block of rows by
  block of rows.

  The grid's first point transposes the whole array z (its second window) into the call's scratch buffer; every point
  loads its block of rows of z (the first window) and the scratch, and stores 1/2 · tanh(1/2 · (rows · zᵀ)) + 1/2
  into its block of the result.  Both input windows read ONE array, so each holds it at half the full share.
  Stated here, for any float instance: what each store leaves, the body's triple at the first point and at a later
  one, the call's proof data and the body obligation.
-/
import proofs.«101579_g4002909520353_cont_8to1_b_697_5_alg».proof.Proof.Gen.Kernel.Launch
import proofs.«101579_g4002909520353_cont_8to1_b_697_5_alg».proof.Proof.Gen.Kernel.Skeleton
import proofs.«101579_g4002909520353_cont_8to1_b_697_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

abbrev r3_0 : Rect S400x128 := Rect.unit (s := S400x128) ![0, 0] S400x128.size inb_S400x128_S400x128_0_0
abbrev r3_1 : Rect S10000x128 := Rect.unit (s := S10000x128) ![0, 0] S10000x128.size inb_S10000x128_S10000x128_0_0
abbrev r3_2 : Rect S400x10000 := Rect.unit (s := S400x10000) ![0, 0] S400x10000.size inb_S400x10000_S400x10000_0_0
abbrev r3_s : Rect S128x10000 := Rect.unit (s := S128x10000) ![0, 0] S128x10000.size inb_S128x10000_S128x10000_0_0

/-- What the first point stores into the scratch buffer, which every later point reads back. -/
def scr3 (x1 : Vec F S10000x128 .f32) : Vec F S128x10000 .bf16 :=
  View.canon [⟨r3_s, k3_pay1 (View.ld x1 r3_1)⟩]
/-- What a point stores into output window 2's buffer, from the blocks it loaded and the scratch. -/
def out3_2 (x0 : Vec F S400x128 .f32) (s : Vec F S128x10000 .bf16) : Vec F S400x10000 .f32 :=
  View.canon [⟨r3_2, k3_pay2 (View.ld x0 r3_0) (View.ld s r3_s)⟩]

theorem cover3_s (p0 : Vec F S128x10000 .bf16) (y : S128x10000.Idx) :
    ∃ pc ∈ ([⟨r3_s, p0⟩] : List (View.Piece (Elt F) S128x10000 .bf16)), y ∈ pc.1.set :=
  View.cover_of_tiled [⟨r3_s, p0⟩] S128x10000.size (by rfl) y
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body at the grid's first point: it fills the scratch, then computes from it. -/
theorem sound_first3 (c : Dev nD) (E : Set ℕ) (i : grid3.Coords) (hc : cond3 i)
    (a0 : Memref sig .tc .vmem S400x128 .f32) (ha0 : a0.IsWhole) (a1 : Memref sig .tc .vmem S10000x128 .f32) (ha1 : a1.IsWhole) (a2 : Memref sig .tc .vmem S400x10000 .f32) (ha2 : a2.IsWhole) (asc : Memref sig .tc .vmem S128x10000 .bf16) (hasc : asc.IsWhole)
    (x0 : Vec F S400x128 .f32) (x1 : Vec F S10000x128 .f32) (K : PUnit → sProp 𝕄) :
    iprop(owns (c : Thread nD τ) a0 fullShare x0
        ∗ owns (c : Thread nD τ) a1 fullShare x1
        ∗ (∃ d, owns (c : Thread nD τ) a2 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare (out3_2 x0 (scr3 x1))
            ∗ owns (c : Thread nD τ) asc fullShare (scr3 x1)) -∗ K ⟨⟩))
      ⊢ wp frame (wpE (defs₀ (F := F)) Variants.none c none) E (cc3__final_body i a0 ha0 a1 ha1 a2 ha2 asc hasc) K := by
  simp only [cc3__final_body_eq_skeleton]; unfold cc3__final_body_skel
  unfold owns
  iintro ⟨⟨%f0, %hf0, H0⟩, ⟨%f1, %hf1, H1⟩, ⟨%d2, %f2, -, H2⟩, ⟨%ds, %fs, -, HS⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.readCov_eq_canon_ld _ _ _ (cover3_s _)]
    exact View.read_writes_eq_canon _ _ _ (cover3_2 _)
  iexists _; isplitr
  swap; · iexact HS
  ipureintro
  try sl_unfold_run_names
  exact View.read_writes_eq_canon _ _ _ (cover3_s _)

set_option maxHeartbeats 1000000 in
/-- The body at a later point: it reads the scratch as the first point left it. -/
theorem sound_later3 (c : Dev nD) (E : Set ℕ) (i : grid3.Coords) (hc : ¬cond3 i)
    (a0 : Memref sig .tc .vmem S400x128 .f32) (ha0 : a0.IsWhole) (a1 : Memref sig .tc .vmem S10000x128 .f32) (ha1 : a1.IsWhole) (a2 : Memref sig .tc .vmem S400x10000 .f32) (ha2 : a2.IsWhole) (asc : Memref sig .tc .vmem S128x10000 .bf16) (hasc : asc.IsWhole)
    (x0 : Vec F S400x128 .f32) (x1 : Vec F S10000x128 .f32) (s : Vec F S128x10000 .bf16) (K : PUnit → sProp 𝕄) :
    iprop(owns (c : Thread nD τ) a0 fullShare x0
        ∗ owns (c : Thread nD τ) a1 fullShare x1
        ∗ (∃ d, owns (c : Thread nD τ) a2 fullShare d)
        ∗ owns (c : Thread nD τ) asc fullShare s
        ∗ (iprop(owns (c : Thread nD τ) a0 fullShare x0
            ∗ owns (c : Thread nD τ) a1 fullShare x1
            ∗ owns (c : Thread nD τ) a2 fullShare (out3_2 x0 s)
            ∗ owns (c : Thread nD τ) asc fullShare s) -∗ K ⟨⟩))
      ⊢ wp frame (wpE (defs₀ (F := F)) Variants.none c none) E (cc3__final_body i a0 ha0 a1 ha1 a2 ha2 asc hasc) K := by
  simp only [cc3__final_body_eq_skeleton]; unfold cc3__final_body_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    exact View.read_writes_eq_canon _ _ _ (cover3_2 _)
  iexists fs; isplitr; · ipureintro; rfl
  iexact HS

section Region3
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The grid's first point. -/
abbrev t0_3 : Fin cfg3.N := ⟨0, by decide⟩
/-- The scratch operand: a whole scoped buffer of the kernel's own, passed beside the windows. -/
abbrev scM3 : Memref sig .tc .vmem S128x10000 .bf16 := Memref.whole cc3_scratch0
/-- What the scratch holds from the first point on: computed from the whole-array windows' blocks there. -/
def S3 (c : Dev nD) : Vec F S128x10000 .bf16 := scr3 (iblk3 V c 1 t0_3)

/-- The class's invariant with the scratch operand split off the other scoped buffers. -/
theorem PhiA3_eq (c : Dev nD) :
    (Pipeline.ΦA spec3 c : sProp 𝕄)
      = iprop(((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole, bigSepL_singleton]
  rfl

/-- The region invariant before position `n`: before the first point the class's (the scratch at anything); afterwards
    the scratch at what the first point stored, the other scoped buffers at anything, the generator register at some state. -/
def Phi3 (c : Dev nD) : ℕ → sProp 𝕄
  | 0 => Pipeline.ΦA spec3 c
  | _ + 1 => iprop((owns (c : Thread nD τ) scM3 fullShare (S3 V c) ∗ Pipeline.scopedRestBut (Ix := Unit) (Name := ℕ) (U := UR sig nD τ) (Lvl := ℕ) (Val := Elt F) spec3 c [cc3_scratch0]) ∗ (∃ r, prngReg c r))

theorem Phi3_pos (c : Dev nD) (n : ℕ) (hn : n ≠ 0) :
    Phi3 V c n = iprop((owns (c : Thread nD τ) scM3 fullShare (S3 V c) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hn
  | succ n => rfl

/-- The proof data of pipeline 3 on core `c`: the arrays as the region finds them; after the body at point `t` each
    input's buffer at its block and each output's at what the body stores, computed from the blocks and the scratch. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (S3 V c)
  Φ t := Phi3 V c t.val
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (S3 V c) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point: at the first the scratch is at anything and the body fills it; at a later one the scratch
    holds what the first point stored, and is handed back unchanged. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = Phi3 V c (t.val + 1) from rfl, Phi3_pos V c (t.val + 1) (Nat.succ_ne_zero _),
    show (dat3 V c).Φ t.castSucc = Phi3 V c t.val from rfl,
    after3_0, after3_1, after3_2]
  by_cases hz : t.val = 0
  · obtain rfl : t = t0_3 := Fin.ext hz
    rw [show Phi3 V c (t0_3).val = Pipeline.ΦA spec3 c from rfl, PhiA3_eq]
    iintro ⟨⟨⟨HS, HR⟩, Hg⟩, Ho, ⟨%d0, H0⟩, ⟨%d1, H1⟩, ⟨%d2, H2⟩⟩
    iapply (sound_first3 c Set.univ _ ((hcond3 t0_3).mpr rfl) _ _ _ _ _ _ _ _ (iblk3 V c 0 t0_3) (iblk3 V c 1 t0_3) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Phi3_pos V c t.val hz]
    iintro ⟨⟨⟨HS, HR⟩, Hg⟩, Ho, ⟨%d0, H0⟩, ⟨%d1, H1⟩, ⟨%d2, H2⟩⟩
    iapply (sound_later3 c Set.univ _ (fun h => hz ((hcond3 t).mp h)) _ _ _ _ _ _ _ _ (iblk3 V c 0 t) (iblk3 V c 1 t) (S3 V c) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = Phi3 V c cfg3.N from rfl, Phi3_pos V c cfg3.N (by decide), PhiA3_eq]
  iintro ⟨⟨HS, HR⟩, Hg⟩
  isplitl [HS HR]
  · isplitl [HS]; · iexists _; iexact HS
    iexact HR
  iexact Hg

end Region3

end Cert.Kernel.Gen.Hand

end
-- ==== Proof.LibSharedWindows.lean ====
/-
  Two input windows on one array.

  A pipeline's entry takes the buffers behind its windows' arrays, each held whole at the full share, and must produce
  one points-to per WINDOW at that window's share. When the map from windows to buffers is injective the two
  collections correspond term by term. Here it is injective except that one window w₂ names the buffer another window w₁
  already names: the buffer's full-share points-to is then cut into two shares, one per window, and at the exit
  the two are joined again. Stated over an abstract iterated separating conjunction, so that it applies to any
  pipeline configuration.
-/
import Idealize.ShloMosaic.Lib.Pipeline.Launch

noncomputable section

namespace Idealize.ShloMosaic.SharedWindows

open Idealize.SL Idealize.SL.BI
open scoped Idealize.SL.BI
open Idealize.SL.BI.BIBase Idealize.SL.BI.Laws Idealize.SL.ProofMode

variable {M : Type} [Idealize.SL.RA.URA M]
variable {I : Type} [Fintype I] [DecidableEq I] {J : Type} [DecidableEq J]

/-- The iterated conjunction over an image, when the map is injective on the index set. -/
theorem bigSep_image_of_injOn (s : Finset I) (r : I → J) (Ψ : J → sProp M)
    (hinj : ∀ x ∈ s, ∀ y ∈ s, r x = r y → x = y) :
    bigSep (s.image r) Ψ = bigSep s (fun i => Ψ (r i)) :=
  Finset.fold_image hinj

/-- The windows' image is unchanged by dropping a window whose buffer another window names. -/
theorem image_erase_dup (r : I → J) {w₁ w₂ : I} (hne : w₁ ≠ w₂) (hdup : r w₁ = r w₂) :
    Finset.univ.image r = (Finset.univ.erase w₂).image r := by
  ext b
  simp only [Finset.mem_image, Finset.mem_univ, true_and, Finset.mem_erase]
  constructor
  · rintro ⟨w, rfl⟩
    by_cases h : w = w₂
    · exact ⟨w₁, ⟨hne, trivial⟩, by rw [h, hdup]⟩
    · exact ⟨w, ⟨h, trivial⟩, rfl⟩
  · rintro ⟨w, -, rfl⟩; exact ⟨w, rfl⟩

/-- ENTRY and EXIT at once: the buffers behind the windows (Ψ over the image of r) are the per-window terms (Φ over
    all windows), when r is injective off the duplicate w₂, every other window's term is its buffer's, and the shared
    buffer's term is cut into the two windows' terms. -/
theorem buffers_iff_windows (r : I → J) (Ψ : J → sProp M) (Φ : I → sProp M) {w₁ w₂ : I} (hne : w₁ ≠ w₂) (hdup : r w₁ = r w₂)
    (hinj : ∀ x, x ≠ w₂ → ∀ y, y ≠ w₂ → r x = r y → x = y)
    (hΦ : ∀ w, w ≠ w₁ → w ≠ w₂ → Φ w = Ψ (r w))
    (hcut : Ψ (r w₁) ⊣⊢ iprop(Φ w₁ ∗ Φ w₂)) :
    bigSep (Finset.univ.image r) Ψ ⊣⊢ bigSep Finset.univ Φ := by
  have h1 : w₁ ∈ Finset.univ.erase w₂ := Finset.mem_erase.mpr ⟨hne, Finset.mem_univ _⟩
  rw [image_erase_dup r hne hdup,
    bigSep_image_of_injOn _ r Ψ (fun x hx y hy => hinj x (Finset.mem_erase.mp hx).1 y (Finset.mem_erase.mp hy).1),
    bigSep_erase h1, bigSep_erase (Finset.mem_univ w₂) (Φ := Φ), bigSep_erase h1 (Φ := Φ),
    bigSep_congr (Φ := fun i => Ψ (r i)) (Ψ := Φ) (s := (Finset.univ.erase w₂).erase w₁) (fun w hw => by
      have h := Finset.mem_erase.mp hw
      exact (hΦ w h.1 (Finset.mem_erase.mp h.2).1).symm)]
  exact (Laws.sep_congr_left hcut).trans (Laws.sep_assoc.trans Laws.sep_left_comm)

end Idealize.ShloMosaic.SharedWindows

end
-- ==== Proof.KShared3.lean ====
/-
  The last region's windows: two input windows (0 and 1) name ONE array, the third (the output) another.

  At the region's entry the core holds every unscoped buffer whole at the full share; the pipeline wants one
  points-to per WINDOW at that window's share. The shared buffer's full-share points-to is cut along the share
  into the two input windows' parts, and at the exit the two parts are joined again; the output window's array
  and every other buffer pass through unchanged. The cut is any pair of shares that compose to the full share
  (`hq`); the two halves of the full share are such a pair (`halves`).
-/
import proofs.«101579_g4002909520353_cont_8to1_b_697_5_alg».proof.Proof.Gen.Kernel.Launch
import proofs.«101579_g4002909520353_cont_8to1_b_697_5_alg».proof.Proof.LibSharedWindows
import Idealize.ShloMosaic.Lib.Pipeline.RegionsLoop

noncomputable section

namespace Cert.Kernel.Gen.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open PCS

variable {F : FTy → Type} [FloatOps F]

local notation "𝕄" => MT nD τ sig Unit (Elt F) ℕ (UR sig nD τ) ℕ

/-- The two input windows name one buffer. -/
theorem arrRef_dup : Pipeline.arrRef spec3 0 = Pipeline.arrRef spec3 1 := rfl

/-- Off the second input window, distinct windows name distinct buffers. -/
theorem arrRef_inj_off : ∀ x : Fin 3, x ≠ 1 → ∀ y : Fin 3, y ≠ 1 →
    Pipeline.arrRef spec3 x = Pipeline.arrRef spec3 y → x = y := by decide

/-- The two halves of the full share compose to it. -/
theorem halves {q0 q1 : PosShare TreeShare} (h0 : q0 = fullShare.left) (h1 : q1 = fullShare.right) :
    fullShare ∈ q0 ·? q1 := by
  rw [h0, h1]; exact PosShare.mem_left_op_right fullShare

section

variable (c : Dev nD) (dat : Dat τ (Elt F) Unit ℕ (UR sig nD τ) ℕ cfg3 c)

/-- A window's array is a whole buffer: its points-to is the buffer's, at the window's share. -/
theorem arr_term (w : Fin cfg3.W) (Fv : (w : Fin cfg3.W) → Buf (Elt F) ((cfg3.win w).arr.view.loc (c : Thread nD τ))) :
    ((cfg3.win w).arr.view.loc (c : Thread nD τ) ↦[(cfg3.win w).arr.view.set]{dat.share w} Fv w : sProp 𝕄)
      = (((c : Thread nD τ).loc (Pipeline.arrRef spec3 w)) ↦{dat.share w} Fv w) := by
  rw [(arr_whole3 w).set_eq_univ]

theorem share0 : dat.share 0 = dat.q 0 := if_neg (show ¬ ((cfg3.win 0).isOut = true) from Bool.false_ne_true)
theorem share1 : dat.share 1 = dat.q 1 := if_neg (show ¬ ((cfg3.win 1).isOut = true) from Bool.false_ne_true)
theorem share2 : dat.share 2 = fullShare := if_pos (show (cfg3.win 2).isOut = true from rfl)

/-- ENTRY and EXIT at once: the distinct buffers behind the region's windows, each whole at the full share at
    contents `V`, are the pipeline's arrays at the same contents, the shared buffer's full share cut into the
    two input windows' shares. -/
theorem arrBufs_iff_arrays (hq : fullShare ∈ dat.q 0 ·? dat.q 1)
    (V : (b : Ref sig .tc) → Buf (Elt F) ((c : Thread nD τ).loc b))
    (Fv : (w : Fin cfg3.W) → Buf (Elt F) ((cfg3.win w).arr.view.loc (c : Thread nD τ)))
    (hF : ∀ w, Fv w = V (Pipeline.arrRef spec3 w)) :
    (Pipeline.arrBufs spec3 c V : sProp 𝕄) ⊣⊢ dat.arrays Fv := by
  unfold Pipeline.arrBufs Dat.arrays
  refine SharedWindows.buffers_iff_windows (Pipeline.arrRef spec3)
    (fun b => (((c : Thread nD τ).loc b) ↦{fullShare} V b : sProp 𝕄))
    (fun w => ((cfg3.win w).arr.view.loc (c : Thread nD τ) ↦[(cfg3.win w).arr.view.set]{dat.share w} Fv w : sProp 𝕄))
    (w₁ := 0) (w₂ := 1) (by decide) arrRef_dup arrRef_inj_off ?_ ?_
  · intro w h0 h1
    match w, h0, h1 with
    | 0, h0, _ => exact absurd rfl h0
    | 1, _, h1 => exact absurd rfl h1
    | 2, _, _ =>
      show ((cfg3.win 2).arr.view.loc (c : Thread nD τ) ↦[(cfg3.win 2).arr.view.set]{dat.share 2} Fv 2 : sProp 𝕄) = _
      rw [arr_term c dat 2 Fv, share2, hF 2]
  · show (((c : Thread nD τ).loc (Pipeline.arrRef spec3 0)) ↦{fullShare} V (Pipeline.arrRef spec3 0) : sProp 𝕄)
      ⊣⊢ iprop(((cfg3.win 0).arr.view.loc (c : Thread nD τ) ↦[(cfg3.win 0).arr.view.set]{dat.share 0} Fv 0)
        ∗ ((cfg3.win 1).arr.view.loc (c : Thread nD τ) ↦[(cfg3.win 1).arr.view.set]{dat.share 1} Fv 1))
    rw [arr_term c dat 0 Fv, arr_term c dat 1 Fv, share0, share1, hF 0, hF 1]
    exact pointsTo_share hq

/-- ENTRY, the arrays' part: the core's unscoped buffers at contents `V` are the region's arrays at the proof
    data's entry contents — those being read off `V` (`hA`) — and the unscoped rest. -/
theorem arrays_of_unscopedBufs3 (hq : fullShare ∈ dat.q 0 ·? dat.q 1)
    (V : (b : Ref sig .tc) → Buf (Elt F) ((c : Thread nD τ).loc b))
    (hA : ∀ w, dat.A w = V (Pipeline.arrRef spec3 w)) :
    (unscopedBufs c V : sProp 𝕄) ⊢ iprop(dat.arrays (dat.arrAt · 0) ∗ Pipeline.unscopedRest spec3 c V) := by
  rw [Pipeline.unscopedBufs_split₀ (Ix := Unit) (Name := ℕ) (U := UR sig nD τ) (Lvl := ℕ) cfgs 3 winFacts₀3.arr_unscoped c V]
  exact sep_mono (arrBufs_iff_arrays c dat hq V (dat.arrAt · 0) (fun w => hA w)).1 .rfl

/-- EXIT, the arrays' part: the region's arrays at contents `Fv` and the unscoped rest at `V` are the core's
    unscoped buffers at any valuation `V'` that has the arrays at `Fv` and agrees with `V` off them. -/
theorem unscopedBufs_of_arrays3 (hq : fullShare ∈ dat.q 0 ·? dat.q 1)
    (V V' : (b : Ref sig .tc) → Buf (Elt F) ((c : Thread nD τ).loc b))
    (Fv : (w : Fin cfg3.W) → Buf (Elt F) ((cfg3.win w).arr.view.loc (c : Thread nD τ)))
    (hF : ∀ w, Fv w = V' (Pipeline.arrRef spec3 w))
    (hrest : ∀ b, b ∉ Finset.univ.image (Pipeline.arrRef spec3) → V' b = V b) :
    iprop(dat.arrays Fv ∗ Pipeline.unscopedRest spec3 c V) ⊢ (unscopedBufs c V' : sProp 𝕄) := by
  rw [Pipeline.unscopedBufs_split₀ (Ix := Unit) (Name := ℕ) (U := UR sig nD τ) (Lvl := ℕ) cfgs 3 winFacts₀3.arr_unscoped c V']
  refine sep_mono (arrBufs_iff_arrays c dat hq V' Fv hF).2 (Entails.of_eq ?_)
  unfold Pipeline.unscopedRest
  exact bigSep_congr fun b hb => by rw [hrest b (Finset.mem_sdiff.mp hb).2]

end

/-! ## The same at the pinned configuration (definitionally the region's) -/

section

variable (a : (p : Fin 4) → (pcfgs (F := F) p).Adm) (c : Dev nD)
  (dat : Dat τ (Elt F) Unit ℕ (UR sig nD τ) ℕ (Pipeline.pin (pcfgs (F := F)) a 3) c)

theorem arrays_of_unscopedBufs3_pin (hq : fullShare ∈ dat.q 0 ·? dat.q 1)
    (V : (b : Ref sig .tc) → Buf (Elt F) ((c : Thread nD τ).loc b))
    (hA : ∀ w, dat.A w = V (Pipeline.arrRef (Pipeline.pin (pcfgs (F := F)) a 3).spec w)) :
    (unscopedBufs c V : sProp 𝕄)
      ⊢ iprop(dat.arrays (dat.arrAt · 0) ∗ Pipeline.unscopedRest (Pipeline.pin (pcfgs (F := F)) a 3).spec c V) :=
  arrays_of_unscopedBufs3 (F := F) c dat hq V hA

theorem unscopedBufs_of_arrays3_pin (hq : fullShare ∈ dat.q 0 ·? dat.q 1)
    (V V' : (b : Ref sig .tc) → Buf (Elt F) ((c : Thread nD τ).loc b))
    (Fv : (w : Fin (Pipeline.pin (pcfgs (F := F)) a 3).W) → Buf (Elt F) (((Pipeline.pin (pcfgs (F := F)) a 3).spec w).arr.view.loc (c : Thread nD τ)))
    (hF : ∀ w, Fv w = V' (Pipeline.arrRef (Pipeline.pin (pcfgs (F := F)) a 3).spec w))
    (hrest : ∀ b, b ∉ Finset.univ.image (Pipeline.arrRef (Pipeline.pin (pcfgs (F := F)) a 3).spec) → V' b = V b) :
    iprop(dat.arrays Fv ∗ Pipeline.unscopedRest (Pipeline.pin (pcfgs (F := F)) a 3).spec c V)
      ⊢ (unscopedBufs c V' : sProp 𝕄) :=
  unscopedBufs_of_arrays3 (F := F) c dat hq V V' Fv hF hrest

end

end Cert.Kernel.Gen.Hand

end
-- ==== Proof.KRun.lean ====
/-
  The four calls in sequence.

  Between two calls every unscoped buffer of the core holds definite contents: the launch memory, then after each
  call that call's result arrays at what its write-backs leave and every other buffer as before.  Each call is
  entered from those contents — its windows' arrays taken out of the core's buffers, the shared array of the fourth
  call cut in two shares —, runs its grid under its invariant, and is left with the arrays put back.  No call's
  output window names an argument array, so the arguments end as launched: the frame, at any float instance.  The
  run's post names the final contents of every unscoped buffer.
-/
import proofs.«101579_g4002909520353_cont_8to1_b_697_5_alg».proof.Proof.KRegion0
import proofs.«101579_g4002909520353_cont_8to1_b_697_5_alg».proof.Proof.KRegion1
import proofs.«101579_g4002909520353_cont_8to1_b_697_5_alg».proof.Proof.KRegion2
import proofs.«101579_g4002909520353_cont_8to1_b_697_5_alg».proof.Proof.KRegion3
import proofs.«101579_g4002909520353_cont_8to1_b_697_5_alg».proof.Proof.KShared3
set_option maxRecDepth 16384

noncomputable section

namespace Cert.Kernel.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary: a fold through the four calls -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After region 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

/-- After region 3: the output array at what the pipeline leaves, every other buffer as entered (its two input
    windows read one array, which stays as entered). -/
def W4 (c : Dev nD) : Valuation τ sig (Elt F) :=
  Function.update (W3 m ρ c) (Proc.devRef .tc main_v3) ((dat3 (V3 m ρ) c).arrAt 2 cfg3.N)
theorem W4_out (c : Dev nD) : W4 m ρ c (Proc.devRef .tc main_v3) = (dat3 (V3 m ρ) c).arrAt 2 cfg3.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) := by
  match w with
  | ⟨0, _⟩ => exact (((dat3 (V3 m ρ) c).arrAt_in 0 rfl _).trans (A_eq3 (V3 m ρ) c 0)).trans (W4_of_ne m ρ c main_v2 (by decide)).symm
  | ⟨1, _⟩ => exact (((dat3 (V3 m ρ) c).arrAt_in 1 rfl _).trans (A_eq3 (V3 m ρ) c 1)).trans (W4_of_ne m ρ c main_v2 (by decide)).symm
  | ⟨2, _⟩ => exact (W4_out m ρ c).symm
theorem hrest3 (c : Dev nD) : ∀ b, b ∉ Finset.univ.image (Pipeline.arrRef spec3) → V4 m ρ c b = V3 m ρ c b :=
  fun b hb => W4_of_ne m ρ c b fun e => hb (Finset.mem_image.mpr ⟨2, Finset.mem_univ _, e.symm⟩)

/-! ## The arguments end as launched -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| (W1_in m ρ c 0 rfl).trans rfl
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans <| (W1_in m ρ c 2 rfl).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| (W1_in m ρ c 1 rfl).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_in m ρ c 1 rfl).trans <| (W1_of_ne m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_in m ρ c 1 rfl).trans <| (W2_of_ne m ρ c main_arg4 (by decide)).trans <| (W1_of_ne m ρ c main_arg4 (by decide)).trans rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
abbrev L : GSem nD τ sig → Finset Unit := fun _ => ∅
abbrev lv : GSem nD τ sig → Unit → ℕ := fun _ _ => 0
/-- What rides beside the buffers through every region: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W3`, left at `W4`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := arrays_of_unscopedBufs3_pin adm c (pdats m ρ 3 c) (halves rfl rfl) (V3 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (V3 m ρ) c).trans ?_
    unfold Pipeline.ΦA
    iintro ⟨Hr, Hp⟩
    isplitl [Hp]; · iexact Hp
    isplitr; · iempintro
    iexact Hr
  hexit c := by
    have hjoin := unscopedBufs_of_arrays3_pin adm c (pdats m ρ 3 c) (halves rfl rfl) (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four calls as segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) :=
  main_segs adm (pdats m ρ) () 𝒱₀ L lv (reg0 m ρ) (reg1 m ρ) (reg2 m ρ) (reg3 m ρ) c

set_option backward.isDefEq.respectTransparency.types false in
/-- THE RUN: from any memory with zero counters, every weakly fair execution of the four calls terminates, nothing
    faulting, and every final state holds each unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_main m ρ)

end Cert.Kernel.Gen.Hand

end
-- ==== Proof.Region0.lean ====
/-
  Call 0 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result — and, in this first call, the adjacency block
  again in the narrower float format, for the later calls to read.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.KernelIdeal.Launch
import proofs.«101579_g4002909520353_cont_8to1_b_697_5_alg».proof.Proof.Gen.KernelIdeal.Skeleton
import proofs.«101579_g4002909520353_cont_8to1_b_697_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

abbrev r0_0 : Rect S10000x32 := Rect.unit (s := S10000x32) ![0, 0] S10000x32.size inb_S10000x32_S10000x32_0_0
abbrev r0_1 : Rect S32x128 := Rect.unit (s := S32x128) ![0, 0] S32x128.size inb_S32x128_S32x128_0_0
abbrev r0_2 : Rect S200x10000 := Rect.unit (s := S200x10000) ![0, 0] S200x10000.size inb_S200x10000_S200x10000_0_0
abbrev r0_3 : Rect S200x128 := Rect.unit (s := S200x128) ![0, 0] S200x128.size inb_S200x128_S200x128_0_0
abbrev r0_4 : Rect S200x10000 := Rect.unit (s := S200x10000) ![0, 0] S200x10000.size inb_S200x10000_S200x10000_0_0
abbrev r0_s : Rect S10000x128 := Rect.unit (s := S10000x128) ![0, 0] S10000x128.size inb_S10000x128_S10000x128_0_0

/-- What the first point stores into the scratch buffer, which every later point reads back. -/
def scr0 (x0 : Vec F S10000x32 .f32) (x1 : Vec F S32x128 .f32) : Vec F S10000x128 .bf16 :=
  View.canon [⟨r0_s, k0_pay1 (View.ld x0 r0_0) (View.ld x1 r0_1)⟩]
/-- What a point stores into output window 3's buffer, from the blocks it loaded and the scratch. -/
def out0_3 (x2 : Vec F S200x10000 .f32) (s : Vec F S10000x128 .bf16) : Vec F S200x128 .f32 :=
  View.canon [⟨r0_3, k0_pay3 (View.ld x2 r0_2) (View.ld s r0_s)⟩]
/-- What a point stores into output window 4's buffer, from the blocks it loaded and the scratch. -/
def out0_4 (x2 : Vec F S200x10000 .f32) : Vec F S200x10000 .bf16 :=
  View.canon [⟨r0_4, k0_pay2 (View.ld x2 r0_2)⟩]

theorem cover0_s (p0 : Vec F S10000x128 .bf16) (y : S10000x128.Idx) :
    ∃ pc ∈ ([⟨r0_s, p0⟩] : List (View.Piece (Elt F) S10000x128 .bf16)), y ∈ pc.1.set :=
  View.cover_of_tiled [⟨r0_s, p0⟩] S10000x128.size (by rfl) y
theorem cover0_3 (p0 : Vec F S200x128 .f32) (y : S200x128.Idx) :
    ∃ pc ∈ ([⟨r0_3, p0⟩] : List (View.Piece (Elt F) S200x128 .f32)), y ∈ pc.1.set :=
  View.cover_of_tiled [⟨r0_3, p0⟩] S200x128.size (by rfl) y
theorem cover0_4 (p0 : Vec F S200x10000 .bf16) (y : S200x10000.Idx) :
    ∃ pc ∈ ([⟨r0_4, p0⟩] : List (View.Piece (Elt F) S200x10000 .bf16)), y ∈ pc.1.set :=
  View.cover_of_tiled [⟨r0_4, p0⟩] S200x10000.size (by rfl) y

set_option maxHeartbeats 1000000 in
/-- The body at the grid's first point: it fills the scratch, then computes from it. -/
theorem sound_first0 (c : Dev nD) (E : Set ℕ) (i : grid0.Coords) (hc : cond0 i)
    (a0 : Memref sig .tc .vmem S10000x32 .f32) (ha0 : a0.IsWhole) (a1 : Memref sig .tc .vmem S32x128 .f32) (ha1 : a1.IsWhole) (a2 : Memref sig .tc .vmem S200x10000 .f32) (ha2 : a2.IsWhole) (a3 : Memref sig .tc .vmem S200x128 .f32) (ha3 : a3.IsWhole) (a4 : Memref sig .tc .vmem S200x10000 .bf16) (ha4 : a4.IsWhole) (asc : Memref sig .tc .vmem S10000x128 .bf16) (hasc : asc.IsWhole)
    (x0 : Vec F S10000x32 .f32) (x1 : Vec F S32x128 .f32) (x2 : Vec F S200x10000 .f32) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out0_3 x2 (scr0 x0 x1))
            ∗ owns (c : Thread nD τ) a4 fullShare (out0_4 x2)
            ∗ owns (c : Thread nD τ) asc fullShare (scr0 x0 x1)) -∗ K ⟨⟩))
      ⊢ wp frame (wpE (defs₀ (F := F)) Variants.none c none) E (cc0__layer_cast_body i a0 ha0 a1 ha1 a2 ha2 a3 ha3 a4 ha4 asc hasc) K := by
  simp only [cc0__layer_cast_body_eq_skeleton]; unfold cc0__layer_cast_body_skel
  unfold owns
  iintro ⟨⟨%f0, %hf0, H0⟩, ⟨%f1, %hf1, H1⟩, ⟨%f2, %hf2, H2⟩, ⟨%d3, %f3, -, H3⟩, ⟨%d4, %f4, -, H4⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover0_s _)]
    exact View.read_writes_eq_canon _ _ _ (cover0_3 _)
  isplitl [H4]
  · iexists _; isplitr
    swap; · iexact H4
    ipureintro
    try sl_unfold_run_names
    exact View.read_writes_eq_canon _ _ _ (cover0_4 _)
  iexists _; isplitr
  swap; · iexact HS
  ipureintro
  try sl_unfold_run_names
  exact View.read_writes_eq_canon _ _ _ (cover0_s _)

set_option maxHeartbeats 1000000 in
/-- The body at a later point: it reads the scratch as the first point left it. -/
theorem sound_later0 (c : Dev nD) (E : Set ℕ) (i : grid0.Coords) (hc : ¬cond0 i)
    (a0 : Memref sig .tc .vmem S10000x32 .f32) (ha0 : a0.IsWhole) (a1 : Memref sig .tc .vmem S32x128 .f32) (ha1 : a1.IsWhole) (a2 : Memref sig .tc .vmem S200x10000 .f32) (ha2 : a2.IsWhole) (a3 : Memref sig .tc .vmem S200x128 .f32) (ha3 : a3.IsWhole) (a4 : Memref sig .tc .vmem S200x10000 .bf16) (ha4 : a4.IsWhole) (asc : Memref sig .tc .vmem S10000x128 .bf16) (hasc : asc.IsWhole)
    (x0 : Vec F S10000x32 .f32) (x1 : Vec F S32x128 .f32) (x2 : Vec F S200x10000 .f32) (s : Vec F S10000x128 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) a4 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out0_3 x2 s)
            ∗ owns (c : Thread nD τ) a4 fullShare (out0_4 x2)
            ∗ owns (c : Thread nD τ) asc fullShare s) -∗ K ⟨⟩))
      ⊢ wp frame (wpE (defs₀ (F := F)) Variants.none c none) E (cc0__layer_cast_body i a0 ha0 a1 ha1 a2 ha2 a3 ha3 a4 ha4 asc hasc) K := by
  simp only [cc0__layer_cast_body_eq_skeleton]; unfold cc0__layer_cast_body_skel
  unfold owns
  iintro ⟨⟨%f0, %hf0, H0⟩, ⟨%f1, %hf1, H1⟩, ⟨%f2, %hf2, H2⟩, ⟨%d3, %f3, -, H3⟩, ⟨%d4, %f4, -, H4⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover0_3 _)
  isplitl [H4]
  · iexists _; isplitr
    swap; · iexact H4
    ipureintro
    try sl_unfold_run_names
    exact View.read_writes_eq_canon _ _ _ (cover0_4 _)
  iexists fs; isplitr; · ipureintro; rfl
  iexact HS

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t0_0 : Fin cfg0.N := ⟨0, by decide⟩
/-- The scratch operand: a whole scoped buffer of the kernel's own, passed beside the windows. -/
abbrev scM0 : Memref sig .tc .vmem S10000x128 .bf16 := Memref.whole cc0_scratch0
/-- What the scratch holds from the first point on: computed from the whole-array windows' blocks there. -/
def S0 (c : Dev nD) : Vec F S10000x128 .bf16 := scr0 (iblk0 V c 0 t0_0) (iblk0 V c 1 t0_0)

/-- The class's invariant with the scratch operand split off the other scoped buffers. -/
theorem PhiA0_eq (c : Dev nD) :
    (Pipeline.ΦA spec0 c : sProp 𝕄)
      = iprop(((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole, bigSepL_singleton]
  rfl

/-- The region invariant before position `n`: before the first point the class's (the scratch at anything); afterwards
    the scratch at what the first point stored, the other scoped buffers at anything, the generator register at some state. -/
def Phi0 (c : Dev nD) : ℕ → sProp 𝕄
  | 0 => Pipeline.ΦA spec0 c
  | _ + 1 => iprop((owns (c : Thread nD τ) scM0 fullShare (S0 V c) ∗ Pipeline.scopedRestBut (Ix := Unit) (Name := ℕ) (U := UR sig nD τ) (Lvl := ℕ) (Val := Elt F) spec0 c [cc0_scratch0]) ∗ (∃ r, prngReg c r))

theorem Phi0_pos (c : Dev nD) (n : ℕ) (hn : n ≠ 0) :
    Phi0 V c n = iprop((owns (c : Thread nD τ) scM0 fullShare (S0 V c) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hn
  | succ n => rfl

/-- The proof data of pipeline 0 on core `c`: the arrays as the region finds them; after the body at point `t` each
    input's buffer at its block and each output's at what the body stores, computed from the blocks and the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 2 t) (S0 V c)
    | ⟨4, _⟩ => out0_4 (iblk0 V c 2 t)
  Φ t := Phi0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 2 t) (S0 V c) := by dsimp only [dat0]
theorem after0_4 (c : Dev nD) (t : Fin cfg0.N) : (dat0 V c).after 4 t = out0_4 (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: at the first the scratch is at anything and the body fills it; at a later one the scratch
    holds what the first point stored, and is handed back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl, Phi0_pos V c (t.val + 1) (Nat.succ_ne_zero _),
    show (dat0 V c).Φ t.castSucc = Phi0 V c t.val from rfl,
    after0_0, after0_1, after0_2, after0_3, after0_4]
  by_cases hz : t.val = 0
  · obtain rfl : t = t0_0 := Fin.ext hz
    rw [show Phi0 V c (t0_0).val = Pipeline.ΦA spec0 c from rfl, PhiA0_eq]
    iintro ⟨⟨⟨HS, HR⟩, Hg⟩, Ho, ⟨%d0, H0⟩, ⟨%d1, H1⟩, ⟨%d2, H2⟩, ⟨%d3, H3⟩, ⟨%d4, H4⟩⟩
    iapply (sound_first0 c Set.univ _ ((hcond0 t0_0).mpr rfl) _ _ _ _ _ _ _ _ _ _ _ _ (iblk0 V c 0 t0_0) (iblk0 V c 1 t0_0) (iblk0 V c 2 t0_0) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4
  · rw [Phi0_pos V c t.val hz]
    iintro ⟨⟨⟨HS, HR⟩, Hg⟩, Ho, ⟨%d0, H0⟩, ⟨%d1, H1⟩, ⟨%d2, H2⟩, ⟨%d3, H3⟩, ⟨%d4, H4⟩⟩
    iapply (sound_later0 c Set.univ _ (fun h => hz ((hcond0 t).mp h)) _ _ _ _ _ _ _ _ _ _ _ _ (iblk0 V c 0 t) (iblk0 V c 1 t) (iblk0 V c 2 t) (S0 V c) _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := BI.Entails.refl _

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c cfg0.N from rfl, Phi0_pos V c cfg0.N (by decide), PhiA0_eq]
  iintro ⟨⟨HS, HR⟩, Hg⟩
  isplitl [HS HR]
  · isplitl [HS]; · iexists _; iexact HS
    iexact HR
  iexact Hg

end Region0

end Cert.KernelIdeal.Gen.Hand

end
-- ==== Proof.Region1.lean ====
/-
  Call 1 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.KernelIdeal.Launch
import proofs.«101579_g4002909520353_cont_8to1_b_697_5_alg».proof.Proof.Gen.KernelIdeal.Skeleton
import proofs.«101579_g4002909520353_cont_8to1_b_697_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val = 0 :=
  (by decide +kernel : ∀ t : Fin grid1.N, cond1 (grid1.coords t) ↔ t.val = 0)

abbrev r1_0 : Rect S10000x128 := Rect.unit (s := S10000x128) ![0, 0] S10000x128.size inb_S10000x128_S10000x128_0_0
abbrev r1_1 : Rect S128x256 := Rect.unit (s := S128x256) ![0, 0] S128x256.size inb_S128x256_S128x256_0_0
abbrev r1_2 : Rect S400x10000 := Rect.unit (s := S400x10000) ![0, 0] S400x10000.size inb_S400x10000_S400x10000_0_0
abbrev r1_3 : Rect S400x256 := Rect.unit (s := S400x256) ![0, 0] S400x256.size inb_S400x256_S400x256_0_0
abbrev r1_s : Rect S10000x256 := Rect.unit (s := S10000x256) ![0, 0] S10000x256.size inb_S10000x256_S10000x256_0_0

/-- What the first point stores into the scratch buffer, which every later point reads back. -/
def scr1 (x0 : Vec F S10000x128 .f32) (x1 : Vec F S128x256 .f32) : Vec F S10000x256 .bf16 :=
  View.canon [⟨r1_s, k1_pay1 (View.ld x0 r1_0) (View.ld x1 r1_1)⟩]
/-- What a point stores into output window 3's buffer, from the blocks it loaded and the scratch. -/
def out1_3 (x2 : Vec F S400x10000 .bf16) (s : Vec F S10000x256 .bf16) : Vec F S400x256 .f32 :=
  View.canon [⟨r1_3, k1_pay2 (View.ld x2 r1_2) (View.ld s r1_s)⟩]

theorem cover1_s (p0 : Vec F S10000x256 .bf16) (y : S10000x256.Idx) :
    ∃ pc ∈ ([⟨r1_s, p0⟩] : List (View.Piece (Elt F) S10000x256 .bf16)), y ∈ pc.1.set :=
  View.cover_of_tiled [⟨r1_s, p0⟩] S10000x256.size (by rfl) y
theorem cover1_3 (p0 : Vec F S400x256 .f32) (y : S400x256.Idx) :
    ∃ pc ∈ ([⟨r1_3, p0⟩] : List (View.Piece (Elt F) S400x256 .f32)), y ∈ pc.1.set :=
  View.cover_of_tiled [⟨r1_3, p0⟩] S400x256.size (by rfl) y

set_option maxHeartbeats 1000000 in
/-- The body at the grid's first point: it fills the scratch, then computes from it. -/
theorem sound_first1 (c : Dev nD) (E : Set ℕ) (i : grid1.Coords) (hc : cond1 i)
    (a0 : Memref sig .tc .vmem S10000x128 .f32) (ha0 : a0.IsWhole) (a1 : Memref sig .tc .vmem S128x256 .f32) (ha1 : a1.IsWhole) (a2 : Memref sig .tc .vmem S400x10000 .bf16) (ha2 : a2.IsWhole) (a3 : Memref sig .tc .vmem S400x256 .f32) (ha3 : a3.IsWhole) (asc : Memref sig .tc .vmem S10000x256 .bf16) (hasc : asc.IsWhole)
    (x0 : Vec F S10000x128 .f32) (x1 : Vec F S128x256 .f32) (x2 : Vec F S400x10000 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out1_3 x2 (scr1 x0 x1))
            ∗ owns (c : Thread nD τ) asc fullShare (scr1 x0 x1)) -∗ K ⟨⟩))
      ⊢ wp frame (wpE (defs₀ (F := F)) Variants.none c none) E (cc1__layer_body i a0 ha0 a1 ha1 a2 ha2 a3 ha3 asc hasc) K := by
  simp only [cc1__layer_body_eq_skeleton]; unfold cc1__layer_body_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover1_s _)]
    exact View.read_writes_eq_canon _ _ _ (cover1_3 _)
  iexists _; isplitr
  swap; · iexact HS
  ipureintro
  try sl_unfold_run_names
  exact View.read_writes_eq_canon _ _ _ (cover1_s _)

set_option maxHeartbeats 1000000 in
/-- The body at a later point: it reads the scratch as the first point left it. -/
theorem sound_later1 (c : Dev nD) (E : Set ℕ) (i : grid1.Coords) (hc : ¬cond1 i)
    (a0 : Memref sig .tc .vmem S10000x128 .f32) (ha0 : a0.IsWhole) (a1 : Memref sig .tc .vmem S128x256 .f32) (ha1 : a1.IsWhole) (a2 : Memref sig .tc .vmem S400x10000 .bf16) (ha2 : a2.IsWhole) (a3 : Memref sig .tc .vmem S400x256 .f32) (ha3 : a3.IsWhole) (asc : Memref sig .tc .vmem S10000x256 .bf16) (hasc : asc.IsWhole)
    (x0 : Vec F S10000x128 .f32) (x1 : Vec F S128x256 .f32) (x2 : Vec F S400x10000 .bf16) (s : Vec F S10000x256 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out1_3 x2 s)
            ∗ owns (c : Thread nD τ) asc fullShare s) -∗ K ⟨⟩))
      ⊢ wp frame (wpE (defs₀ (F := F)) Variants.none c none) E (cc1__layer_body i a0 ha0 a1 ha1 a2 ha2 a3 ha3 asc hasc) K := by
  simp only [cc1__layer_body_eq_skeleton]; unfold cc1__layer_body_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover1_3 _)
  iexists fs; isplitr; · ipureintro; rfl
  iexact HS

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The grid's first point. -/
abbrev t0_1 : Fin cfg1.N := ⟨0, by decide⟩
/-- The scratch operand: a whole scoped buffer of the kernel's own, passed beside the windows. -/
abbrev scM1 : Memref sig .tc .vmem S10000x256 .bf16 := Memref.whole cc1_scratch0
/-- What the scratch holds from the first point on: computed from the whole-array windows' blocks there. -/
def S1 (c : Dev nD) : Vec F S10000x256 .bf16 := scr1 (iblk1 V c 0 t0_1) (iblk1 V c 1 t0_1)

/-- The class's invariant with the scratch operand split off the other scoped buffers. -/
theorem PhiA1_eq (c : Dev nD) :
    (Pipeline.ΦA spec1 c : sProp 𝕄)
      = iprop(((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole, bigSepL_singleton]
  rfl

/-- The region invariant before position `n`: before the first point the class's (the scratch at anything); afterwards
    the scratch at what the first point stored, the other scoped buffers at anything, the generator register at some state. -/
def Phi1 (c : Dev nD) : ℕ → sProp 𝕄
  | 0 => Pipeline.ΦA spec1 c
  | _ + 1 => iprop((owns (c : Thread nD τ) scM1 fullShare (S1 V c) ∗ Pipeline.scopedRestBut (Ix := Unit) (Name := ℕ) (U := UR sig nD τ) (Lvl := ℕ) (Val := Elt F) spec1 c [cc1_scratch0]) ∗ (∃ r, prngReg c r))

theorem Phi1_pos (c : Dev nD) (n : ℕ) (hn : n ≠ 0) :
    Phi1 V c n = iprop((owns (c : Thread nD τ) scM1 fullShare (S1 V c) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hn
  | succ n => rfl

/-- The proof data of pipeline 1 on core `c`: the arrays as the region finds them; after the body at point `t` each
    input's buffer at its block and each output's at what the body stores, computed from the blocks and the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 2 t) (S1 V c)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 2 t) (S1 V c) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any point: at the first the scratch is at anything and the body fills it; at a later one the scratch
    holds what the first point stored, and is handed back unchanged. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl, Phi1_pos V c (t.val + 1) (Nat.succ_ne_zero _),
    show (dat1 V c).Φ t.castSucc = Phi1 V c t.val from rfl,
    after1_0, after1_1, after1_2, after1_3]
  by_cases hz : t.val = 0
  · obtain rfl : t = t0_1 := Fin.ext hz
    rw [show Phi1 V c (t0_1).val = Pipeline.ΦA spec1 c from rfl, PhiA1_eq]
    iintro ⟨⟨⟨HS, HR⟩, Hg⟩, Ho, ⟨%d0, H0⟩, ⟨%d1, H1⟩, ⟨%d2, H2⟩, ⟨%d3, H3⟩⟩
    iapply (sound_first1 c Set.univ _ ((hcond1 t0_1).mpr rfl) _ _ _ _ _ _ _ _ _ _ (iblk1 V c 0 t0_1) (iblk1 V c 1 t0_1) (iblk1 V c 2 t0_1) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Phi1_pos V c t.val hz]
    iintro ⟨⟨⟨HS, HR⟩, Hg⟩, Ho, ⟨%d0, H0⟩, ⟨%d1, H1⟩, ⟨%d2, H2⟩, ⟨%d3, H3⟩⟩
    iapply (sound_later1 c Set.univ _ (fun h => hz ((hcond1 t).mp h)) _ _ _ _ _ _ _ _ _ _ (iblk1 V c 0 t) (iblk1 V c 1 t) (iblk1 V c 2 t) (S1 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := BI.Entails.refl _

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = Phi1 V c cfg1.N from rfl, Phi1_pos V c cfg1.N (by decide), PhiA1_eq]
  iintro ⟨⟨HS, HR⟩, Hg⟩
  isplitl [HS HR]
  · isplitl [HS]; · iexists _; iexact HS
    iexact HR
  iexact Hg

end Region1

end Cert.KernelIdeal.Gen.Hand

end
-- ==== Proof.Region2.lean ====
/-
  Call 2 of the four: one decoder layer  Z ↦ A · tanh(Z · W)  computed block of rows by block of rows.

  The grid's first point computes the support matrix tanh(Z · W) from the two whole-array windows and stores it into
  the call's scratch buffer; every point (the first included) loads its block of rows of the adjacency matrix and the
  scratch, and stores their product into its block of the result.  Stated here, for any float instance: what each store
  leaves (one whole-rectangle piece each, so the buffer reads as the payload), the body's triple at the first point
  (scratch at anything in, at the support matrix out) and at a later point (scratch at the support matrix in and
  out), the call's proof data — after the body each input's buffer holds its block and each output's what the point
  stored, the invariant holds the scratch at the support matrix from the first point on — and the body obligation.
-/
import proofs.«101579_g4002909520353_cont_8to1_b_697_5_alg».proof.Proof.Gen.KernelIdeal.Launch
import proofs.«101579_g4002909520353_cont_8to1_b_697_5_alg».proof.Proof.Gen.KernelIdeal.Skeleton
import proofs.«101579_g4002909520353_cont_8to1_b_697_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val = 0 :=
  (by decide +kernel : ∀ t : Fin grid2.N, cond2 (grid2.coords t) ↔ t.val = 0)

abbrev r2_0 : Rect S10000x256 := Rect.unit (s := S10000x256) ![0, 0] S10000x256.size inb_S10000x256_S10000x256_0_0
abbrev r2_1 : Rect S256x128 := Rect.unit (s := S256x128) ![0, 0] S256x128.size inb_S256x128_S256x128_0_0
abbrev r2_2 : Rect S400x10000 := Rect.unit (s := S400x10000) ![0, 0] S400x10000.size inb_S400x10000_S400x10000_0_0
abbrev r2_3 : Rect S400x128 := Rect.unit (s := S400x128) ![0, 0] S400x128.size inb_S400x128_S400x128_0_0
abbrev r2_s : Rect S10000x128 := Rect.unit (s := S10000x128) ![0, 0] S10000x128.size inb_S10000x128_S10000x128_0_0

/-- What the first point stores into the scratch buffer, which every later point reads back. -/
def scr2 (x0 : Vec F S10000x256 .f32) (x1 : Vec F S256x128 .f32) : Vec F S10000x128 .bf16 :=
  View.canon [⟨r2_s, k2_pay1 (View.ld x0 r2_0) (View.ld x1 r2_1)⟩]
/-- What a point stores into output window 3's buffer, from the blocks it loaded and the scratch. -/
def out2_3 (x2 : Vec F S400x10000 .bf16) (s : Vec F S10000x128 .bf16) : Vec F S400x128 .f32 :=
  View.canon [⟨r2_3, k2_pay2 (View.ld x2 r2_2) (View.ld s r2_s)⟩]

theorem cover2_s (p0 : Vec F S10000x128 .bf16) (y : S10000x128.Idx) :
    ∃ pc ∈ ([⟨r2_s, p0⟩] : List (View.Piece (Elt F) S10000x128 .bf16)), y ∈ pc.1.set :=
  View.cover_of_tiled [⟨r2_s, p0⟩] S10000x128.size (by rfl) y
theorem cover2_3 (p0 : Vec F S400x128 .f32) (y : S400x128.Idx) :
    ∃ pc ∈ ([⟨r2_3, p0⟩] : List (View.Piece (Elt F) S400x128 .f32)), y ∈ pc.1.set :=
  View.cover_of_tiled [⟨r2_3, p0⟩] S400x128.size (by rfl) y

set_option maxHeartbeats 1000000 in
/-- The body at the grid's first point: it fills the scratch, then computes from it. -/
theorem sound_first2 (c : Dev nD) (E : Set ℕ) (i : grid2.Coords) (hc : cond2 i)
    (a0 : Memref sig .tc .vmem S10000x256 .f32) (ha0 : a0.IsWhole) (a1 : Memref sig .tc .vmem S256x128 .f32) (ha1 : a1.IsWhole) (a2 : Memref sig .tc .vmem S400x10000 .bf16) (ha2 : a2.IsWhole) (a3 : Memref sig .tc .vmem S400x128 .f32) (ha3 : a3.IsWhole) (asc : Memref sig .tc .vmem S10000x128 .bf16) (hasc : asc.IsWhole)
    (x0 : Vec F S10000x256 .f32) (x1 : Vec F S256x128 .f32) (x2 : Vec F S400x10000 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare x2
            ∗ owns (c : Thread nD τ) a3 fullShare (out2_3 x2 (scr2 x0 x1))
            ∗ owns (c : Thread nD τ) asc fullShare (scr2 x0 x1)) -∗ K ⟨⟩))
      ⊢ wp frame (wpE (defs₀ (F := F)) Variants.none c none) E (cc2__layer_body i a0 ha0 a1 ha1 a2 ha2 a3 ha3 asc hasc) K := by
  simp only [cc2__layer_body_eq_skeleton]; unfold cc2__layer_body_skel
  unfold owns
  iintro ⟨⟨%f0, %hf0, H0⟩, ⟨%f1, %hf1, H1⟩, ⟨%f2, %hf2, H2⟩, ⟨%d3, %f3, -, H3⟩, ⟨%ds, %fs, -, HS⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    rw [View.readCov_eq_canon_ld _ _ _ (cover2_s _)]
    exact View.read_writes_eq_canon _ _ _ (cover2_3 _)
  iexists _; isplitr
  swap; · iexact HS
  ipureintro
  try sl_unfold_run_names
  exact View.read_writes_eq_canon _ _ _ (cover2_s _)

set_option maxHeartbeats 1000000 in
/-- The body at a later point: it reads the scratch as the first point left it. -/
theorem sound_later2 (c : Dev nD) (E : Set ℕ) (i : grid2.Coords) (hc : ¬cond2 i)
    (a0 : Memref sig .tc .vmem S10000x256 .f32) (ha0 : a0.IsWhole) (a1 : Memref sig .tc .vmem S256x128 .f32) (ha1 : a1.IsWhole) (a2 : Memref sig .tc .vmem S400x10000 .bf16) (ha2 : a2.IsWhole) (a3 : Memref sig .tc .vmem S400x128 .f32) (ha3 : a3.IsWhole) (asc : Memref sig .tc .vmem S10000x128 .bf16) (hasc : asc.IsWhole)
    (x0 : Vec F S10000x256 .f32) (x1 : Vec F S256x128 .f32) (x2 : Vec F S400x10000 .bf16) (s : Vec F S10000x128 .bf16) (K : PUnit → sProp 𝕄) :
    iprop(owns (c : Thread nD τ) a0 fullShare x0
        ∗ owns (c : Thread nD τ) a1 fullShare x1
        ∗ owns (c : Thread nD τ) a2 fullShare x2
        ∗ (∃ d, owns (c : Thread nD τ) a3 fullShare d)
        ∗ owns (c : Thread nD τ) asc fullShare s
        ∗ (iprop(owns (c : Thread nD τ) a0 fullShare x0
            ∗ owns (c : Thread nD τ) a1 fullShare x1
            ∗ owns (c : Thread nD τ) a2 fullShare x2
            ∗ owns (c : Thread nD τ) a3 fullShare (out2_3 x2 s)
            ∗ owns (c : Thread nD τ) asc fullShare s) -∗ K ⟨⟩))
      ⊢ wp frame (wpE (defs₀ (F := F)) Variants.none c none) E (cc2__layer_body i a0 ha0 a1 ha1 a2 ha2 a3 ha3 asc hasc) K := by
  simp only [cc2__layer_body_eq_skeleton]; unfold cc2__layer_body_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try sl_unfold_run_names
    exact View.read_writes_eq_canon _ _ _ (cover2_3 _)
  iexists fs; isplitr; · ipureintro; rfl
  iexact HS

section Region2
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The grid's first point. -/
abbrev t0_2 : Fin cfg2.N := ⟨0, by decide⟩
/-- The scratch operand: a whole scoped buffer of the kernel's own, passed beside the windows. -/
abbrev scM2 : Memref sig .tc .vmem S10000x128 .bf16 := Memref.whole cc2_scratch0
/-- What the scratch holds from the first point on: computed from the whole-array windows' blocks there. -/
def S2 (c : Dev nD) : Vec F S10000x128 .bf16 := scr2 (iblk2 V c 0 t0_2) (iblk2 V c 1 t0_2)

/-- The class's invariant with the scratch operand split off the other scoped buffers. -/
theorem PhiA2_eq (c : Dev nD) :
    (Pipeline.ΦA spec2 c : sProp 𝕄)
      = iprop(((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole, bigSepL_singleton]
  rfl

/-- The region invariant before position `n`: before the first point the class's (the scratch at anything); afterwards
    the scratch at what the first point stored, the other scoped buffers at anything, the generator register at some state. -/
def Phi2 (c : Dev nD) : ℕ → sProp 𝕄
  | 0 => Pipeline.ΦA spec2 c
  | _ + 1 => iprop((owns (c : Thread nD τ) scM2 fullShare (S2 V c) ∗ Pipeline.scopedRestBut (Ix := Unit) (Name := ℕ) (U := UR sig nD τ) (Lvl := ℕ) (Val := Elt F) spec2 c [cc2_scratch0]) ∗ (∃ r, prngReg c r))

theorem Phi2_pos (c : Dev nD) (n : ℕ) (hn : n ≠ 0) :
    Phi2 V c n = iprop((owns (c : Thread nD τ) scM2 fullShare (S2 V c) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hn
  | succ n => rfl

/-- The proof data of pipeline 2 on core `c`: the arrays as the region finds them; after the body at point `t` each
    input's buffer at its block and each output's at what the body stores, computed from the blocks and the scratch. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 2 t) (S2 V c)
  Φ t := Phi2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 2 t) (S2 V c) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: at the first the scratch is at anything and the body fills it; at a later one the scratch
    holds what the first point stored, and is handed back unchanged. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl, Phi2_pos V c (t.val + 1) (Nat.succ_ne_zero _),
    show (dat2 V c).Φ t.castSucc = Phi2 V c t.val from rfl,
    after2_0, after2_1, after2_2, after2_3]
  by_cases hz : t.val = 0
  · obtain rfl : t = t0_2 := Fin.ext hz
    rw [show Phi2 V c (t0_2).val = Pipeline.ΦA spec2 c from rfl, PhiA2_eq]
    iintro ⟨⟨⟨HS, HR⟩, Hg⟩, Ho, ⟨%d0, H0⟩, ⟨%d1, H1⟩, ⟨%d2, H2⟩, ⟨%d3, H3⟩⟩
    iapply (sound_first2 c Set.univ _ ((hcond2 t0_2).mpr rfl) _ _ _ _ _ _ _ _ _ _ (iblk2 V c 0 t0_2) (iblk2 V c 1 t0_2) (iblk2 V c 2 t0_2) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3
  · rw [Phi2_pos V c t.val hz]
    iintro ⟨⟨⟨HS, HR⟩, Hg⟩, Ho, ⟨%d0, H0⟩, ⟨%d1, H1⟩, ⟨%d2, H2⟩, ⟨%d3, H3⟩⟩
    iapply (sound_later2 c Set.univ _ (fun h => hz ((hcond2 t).mp h)) _ _ _ _ _ _ _ _ _ _ (iblk2 V c 0 t) (iblk2 V c 1 t) (iblk2 V c 2 t) (S2 V c) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := BI.Entails.refl _

/-- After the last point the invariant gives the class's back: the scratch's named contents are forgotten. -/
theorem hout2 (c : Dev nD) : (dat2 V c).Φ (Fin.last cfg2.N) ⊢ Pipeline.ΦA spec2 c := by
  rw [show (dat2 V c).Φ (Fin.last cfg2.N) = Phi2 V c cfg2.N from rfl, Phi2_pos V c cfg2.N (by decide), PhiA2_eq]
  iintro ⟨⟨HS, HR⟩, Hg⟩
  isplitl [HS HR]
  · isplitl [HS]; · iexists _; iexact HS
    iexact HR
  iexact Hg

end Region2

end Cert.KernelIdeal.Gen.Hand

end
-- ==== Proof.Region3.lean ====
/-
  Call 3 of the four: the Gram matrix of the decoder's output z through the logistic function, block of rows by
  block of rows.

  The grid's first point transposes the whole array z (its second window) into the call's scratch buffer; every point
  loads its block of rows of z (the first window) and the scratch, and stores 1/2 · tanh(1/2 · (rows · zᵀ)) + 1/2
  into its block of the result.  Both input windows read ONE array, so each holds it at half the full share.
  Stated here, for any float instance: what each store leaves, the body's triple at the first point and at a later
  one, the call's proof data and the body obligation.
-/
import proofs.«101579_g4002909520353_cont_8to1_b_697_5_alg».proof.Proof.Gen.KernelIdeal.Launch
import proofs.«101579_g4002909520353_cont_8to1_b_697_5_alg».proof.Proof.Gen.KernelIdeal.Skeleton
import proofs.«101579_g4002909520353_cont_8to1_b_697_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the body's branch (taken at the grid's first point only), from the grid coordinates. -/
abbrev cond3 (i : grid3.Coords) : Prop := (Scalar.cmpi .ne (Scalar.extui (Scalar.cmpi .eq (BitVec.ofNat 32 (i 0).val) 0#32)) 0#32) = 1#1
theorem hcond3 : ∀ t : Fin cfg3.N, cond3 (grid3.coords t) ↔ t.val = 0 :=
  (by decide +kernel : ∀ t : Fin grid3.N, cond3 (grid3.coords t) ↔ t.val = 0)

abbrev r3_0 : Rect S400x128 := Rect.unit (s := S400x128) ![0, 0] S400x128.size inb_S400x128_S400x128_0_0
abbrev r3_1 : Rect S10000x128 := Rect.unit (s := S10000x128) ![0, 0] S10000x128.size inb_S10000x128_S10000x128_0_0
abbrev r3_2 : Rect S400x10000 := Rect.unit (s := S400x10000) ![0, 0] S400x10000.size inb_S400x10000_S400x10000_0_0
abbrev r3_s : Rect S128x10000 := Rect.unit (s := S128x10000) ![0, 0] S128x10000.size inb_S128x10000_S128x10000_0_0

/-- What the first point stores into the scratch buffer, which every later point reads back. -/
def scr3 (x1 : Vec F S10000x128 .f32) : Vec F S128x10000 .bf16 :=
  View.canon [⟨r3_s, k3_pay1 (View.ld x1 r3_1)⟩]
/-- What a point stores into output window 2's buffer, from the blocks it loaded and the scratch. -/
def out3_2 (x0 : Vec F S400x128 .f32) (s : Vec F S128x10000 .bf16) : Vec F S400x10000 .f32 :=
  View.canon [⟨r3_2, k3_pay2 (View.ld x0 r3_0) (View.ld s r3_s)⟩]

theorem cover3_s (p0 : Vec F S128x10000 .bf16) (y : S128x10000.Idx) :
    ∃ pc ∈ ([⟨r3_s, p0⟩] : List (View.Piece (Elt F) S128x10000 .bf16)), y ∈ pc.1.set :=
  View.cover_of_tiled [⟨r3_s, p0⟩] S128x10000.size (by rfl) y
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body at the grid's first point: it fills the scratch, then computes from it. -/
theorem sound_first3 (c : Dev nD) (E : Set ℕ) (i : grid3.Coords) (hc : cond3 i)
    (a0 : Memref sig .tc .vmem S400x128 .f32) (ha0 : a0.IsWhole) (a1 : Memref sig .tc .vmem S10000x128 .f32) (ha1 : a1.IsWhole) (a2 : Memref sig .tc .vmem S400x10000 .f32) (ha2 : a2.IsWhole) (asc : Memref sig .tc .vmem S128x10000 .bf16) (hasc : asc.IsWhole)
    (x0 : Vec F S400x128 .f32) (x1 : Vec F S10000x128 .f32) (K : PUnit → sProp 𝕄) :
    iprop(owns (c : Thread nD τ) a0 fullShare x0
        ∗ owns (c : Thread nD τ) a1 fullShare x1
        ∗ (∃ d, owns (c : Thread nD τ) a2 fullShare d)
        ∗ (∃ d, owns (c : Thread nD τ) asc fullShare d)
        ∗ (iprop(owns (c : Thread nD τ) a0 fullShare x0
            ∗ owns (c : Thread nD τ) a1 fullShare x1
            ∗ owns (c : Thread nD τ) a2 fullShare (out3_2 x0 (scr3 x1))
            ∗ owns (c : Thread nD τ) asc fullShare (scr3 x1)) -∗ K ⟨⟩))
      ⊢ wp frame (wpE (defs₀ (F := F)) Variants.none c none) E (cc3__final_body i a0 ha0 a1 ha1 a2 ha2 asc hasc) K := by
  simp only [cc3__final_body_eq_skeleton]; unfold cc3__final_body_skel
  unfold owns
  iintro ⟨⟨%f0, %hf0, H0⟩, ⟨%f1, %hf1, H1⟩, ⟨%d2, %f2, -, H2⟩, ⟨%ds, %fs, -, HS⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    rw [View.readCov_eq_canon_ld _ _ _ (cover3_s _)]
    exact View.read_writes_eq_canon _ _ _ (cover3_2 _)
  iexists _; isplitr
  swap; · iexact HS
  ipureintro
  try sl_unfold_run_names
  exact View.read_writes_eq_canon _ _ _ (cover3_s _)

set_option maxHeartbeats 1000000 in
/-- The body at a later point: it reads the scratch as the first point left it. -/
theorem sound_later3 (c : Dev nD) (E : Set ℕ) (i : grid3.Coords) (hc : ¬cond3 i)
    (a0 : Memref sig .tc .vmem S400x128 .f32) (ha0 : a0.IsWhole) (a1 : Memref sig .tc .vmem S10000x128 .f32) (ha1 : a1.IsWhole) (a2 : Memref sig .tc .vmem S400x10000 .f32) (ha2 : a2.IsWhole) (asc : Memref sig .tc .vmem S128x10000 .bf16) (hasc : asc.IsWhole)
    (x0 : Vec F S400x128 .f32) (x1 : Vec F S10000x128 .f32) (s : Vec F S128x10000 .bf16) (K : PUnit → sProp 𝕄) :
    iprop(owns (c : Thread nD τ) a0 fullShare x0
        ∗ owns (c : Thread nD τ) a1 fullShare x1
        ∗ (∃ d, owns (c : Thread nD τ) a2 fullShare d)
        ∗ owns (c : Thread nD τ) asc fullShare s
        ∗ (iprop(owns (c : Thread nD τ) a0 fullShare x0
            ∗ owns (c : Thread nD τ) a1 fullShare x1
            ∗ owns (c : Thread nD τ) a2 fullShare (out3_2 x0 s)
            ∗ owns (c : Thread nD τ) asc fullShare s) -∗ K ⟨⟩))
      ⊢ wp frame (wpE (defs₀ (F := F)) Variants.none c none) E (cc3__final_body i a0 ha0 a1 ha1 a2 ha2 asc hasc) K := by
  simp only [cc3__final_body_eq_skeleton]; unfold cc3__final_body_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    try sl_unfold_run_names
    exact View.read_writes_eq_canon _ _ _ (cover3_2 _)
  iexists fs; isplitr; · ipureintro; rfl
  iexact HS

section Region3
variable (V : (c : Dev nD) → (b : Ref sig .tc) → Buf (Elt F) ((c : Thread nD τ).loc b))

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The grid's first point. -/
abbrev t0_3 : Fin cfg3.N := ⟨0, by decide⟩
/-- The scratch operand: a whole scoped buffer of the kernel's own, passed beside the windows. -/
abbrev scM3 : Memref sig .tc .vmem S128x10000 .bf16 := Memref.whole cc3_scratch0
/-- What the scratch holds from the first point on: computed from the whole-array windows' blocks there. -/
def S3 (c : Dev nD) : Vec F S128x10000 .bf16 := scr3 (iblk3 V c 1 t0_3)

/-- The class's invariant with the scratch operand split off the other scoped buffers. -/
theorem PhiA3_eq (c : Dev nD) :
    (Pipeline.ΦA spec3 c : sProp 𝕄)
      = iprop(((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] (by decide) (by decide)]
  simp only [scM3, owns_whole, bigSepL_singleton]
  rfl

/-- The region invariant before position `n`: before the first point the class's (the scratch at anything); afterwards
    the scratch at what the first point stored, the other scoped buffers at anything, the generator register at some state. -/
def Phi3 (c : Dev nD) : ℕ → sProp 𝕄
  | 0 => Pipeline.ΦA spec3 c
  | _ + 1 => iprop((owns (c : Thread nD τ) scM3 fullShare (S3 V c) ∗ Pipeline.scopedRestBut (Ix := Unit) (Name := ℕ) (U := UR sig nD τ) (Lvl := ℕ) (Val := Elt F) spec3 c [cc3_scratch0]) ∗ (∃ r, prngReg c r))

theorem Phi3_pos (c : Dev nD) (n : ℕ) (hn : n ≠ 0) :
    Phi3 V c n = iprop((owns (c : Thread nD τ) scM3 fullShare (S3 V c) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hn
  | succ n => rfl

/-- The proof data of pipeline 3 on core `c`: the arrays as the region finds them; after the body at point `t` each
    input's buffer at its block and each output's at what the body stores, computed from the blocks and the scratch. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (S3 V c)
  Φ t := Phi3 V c t.val
  q w := match w with
    | ⟨0, _⟩ => fullShare.left
    | ⟨1, _⟩ => fullShare.right
    | _ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (S3 V c) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

set_option maxHeartbeats 1000000 in
/-- The body at any point: at the first the scratch is at anything and the body fills it; at a later one the scratch
    holds what the first point stored, and is handed back unchanged. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl,
    show (dat3 V c).Φ t.succ = Phi3 V c (t.val + 1) from rfl, Phi3_pos V c (t.val + 1) (Nat.succ_ne_zero _),
    show (dat3 V c).Φ t.castSucc = Phi3 V c t.val from rfl,
    after3_0, after3_1, after3_2]
  by_cases hz : t.val = 0
  · obtain rfl : t = t0_3 := Fin.ext hz
    rw [show Phi3 V c (t0_3).val = Pipeline.ΦA spec3 c from rfl, PhiA3_eq]
    iintro ⟨⟨⟨HS, HR⟩, Hg⟩, Ho, ⟨%d0, H0⟩, ⟨%d1, H1⟩, ⟨%d2, H2⟩⟩
    iapply (sound_first3 c Set.univ _ ((hcond3 t0_3).mpr rfl) _ _ _ _ _ _ _ _ (iblk3 V c 0 t0_3) (iblk3 V c 1 t0_3) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Phi3_pos V c t.val hz]
    iintro ⟨⟨⟨HS, HR⟩, Hg⟩, Ho, ⟨%d0, H0⟩, ⟨%d1, H1⟩, ⟨%d2, H2⟩⟩
    iapply (sound_later3 c Set.univ _ (fun h => hz ((hcond3 t).mp h)) _ _ _ _ _ _ _ _ (iblk3 V c 0 t) (iblk3 V c 1 t) (S3 V c) _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := BI.Entails.refl _

/-- After the last point the invariant gives the class's back: the scratch's named contents are forgotten. -/
theorem hout3 (c : Dev nD) : (dat3 V c).Φ (Fin.last cfg3.N) ⊢ Pipeline.ΦA spec3 c := by
  rw [show (dat3 V c).Φ (Fin.last cfg3.N) = Phi3 V c cfg3.N from rfl, Phi3_pos V c cfg3.N (by decide), PhiA3_eq]
  iintro ⟨⟨HS, HR⟩, Hg⟩
  isplitl [HS HR]
  · isplitl [HS]; · iexists _; iexact HS
    iexact HR
  iexact Hg

end Region3

end Cert.KernelIdeal.Gen.Hand

end
-- ==== Proof.Shared3.lean ====
/-
  The last region's windows: two input windows (0 and 1) name ONE array, the third (the output) another.

  At the region's entry the core holds every unscoped buffer whole at the full share; the pipeline wants one
  points-to per WINDOW at that window's share. The shared buffer's full-share points-to is cut along the share
  into the two input windows' parts, and at the exit the two parts are joined again; the output window's array
  and every other buffer pass through unchanged. The cut is any pair of shares that compose to the full share
  (`hq`); the two halves of the full share are such a pair (`halves`).
-/
import proofs.«101579_g4002909520353_cont_8to1_b_697_5_alg».proof.Proof.Gen.KernelIdeal.Launch
import proofs.«101579_g4002909520353_cont_8to1_b_697_5_alg».proof.Proof.LibSharedWindows
import Idealize.ShloMosaic.Lib.Pipeline.RegionsLoop

noncomputable section

namespace Cert.KernelIdeal.Gen.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open PCS

variable {F : FTy → Type} [FloatOps F]

local notation "𝕄" => MT nD τ sig Unit (Elt F) ℕ (UR sig nD τ) ℕ

/-- The two input windows name one buffer. -/
theorem arrRef_dup : Pipeline.arrRef spec3 0 = Pipeline.arrRef spec3 1 := rfl

/-- Off the second input window, distinct windows name distinct buffers. -/
theorem arrRef_inj_off : ∀ x : Fin 3, x ≠ 1 → ∀ y : Fin 3, y ≠ 1 →
    Pipeline.arrRef spec3 x = Pipeline.arrRef spec3 y → x = y := by decide

/-- The two halves of the full share compose to it. -/
theorem halves {q0 q1 : PosShare TreeShare} (h0 : q0 = fullShare.left) (h1 : q1 = fullShare.right) :
    fullShare ∈ q0 ·? q1 := by
  rw [h0, h1]; exact PosShare.mem_left_op_right fullShare

section

variable (c : Dev nD) (dat : Dat τ (Elt F) Unit ℕ (UR sig nD τ) ℕ cfg3 c)

/-- A window's array is a whole buffer: its points-to is the buffer's, at the window's share. -/
theorem arr_term (w : Fin cfg3.W) (Fv : (w : Fin cfg3.W) → Buf (Elt F) ((cfg3.win w).arr.view.loc (c : Thread nD τ))) :
    ((cfg3.win w).arr.view.loc (c : Thread nD τ) ↦[(cfg3.win w).arr.view.set]{dat.share w} Fv w : sProp 𝕄)
      = (((c : Thread nD τ).loc (Pipeline.arrRef spec3 w)) ↦{dat.share w} Fv w) := by
  rw [(arr_whole3 w).set_eq_univ]

theorem share0 : dat.share 0 = dat.q 0 := if_neg (show ¬ ((cfg3.win 0).isOut = true) from Bool.false_ne_true)
theorem share1 : dat.share 1 = dat.q 1 := if_neg (show ¬ ((cfg3.win 1).isOut = true) from Bool.false_ne_true)
theorem share2 : dat.share 2 = fullShare := if_pos (show (cfg3.win 2).isOut = true from rfl)

/-- ENTRY and EXIT at once: the distinct buffers behind the region's windows, each whole at the full share at
    contents `V`, are the pipeline's arrays at the same contents, the shared buffer's full share cut into the
    two input windows' shares. -/
theorem arrBufs_iff_arrays (hq : fullShare ∈ dat.q 0 ·? dat.q 1)
    (V : (b : Ref sig .tc) → Buf (Elt F) ((c : Thread nD τ).loc b))
    (Fv : (w : Fin cfg3.W) → Buf (Elt F) ((cfg3.win w).arr.view.loc (c : Thread nD τ)))
    (hF : ∀ w, Fv w = V (Pipeline.arrRef spec3 w)) :
    (Pipeline.arrBufs spec3 c V : sProp 𝕄) ⊣⊢ dat.arrays Fv := by
  unfold Pipeline.arrBufs Dat.arrays
  refine SharedWindows.buffers_iff_windows (Pipeline.arrRef spec3)
    (fun b => (((c : Thread nD τ).loc b) ↦{fullShare} V b : sProp 𝕄))
    (fun w => ((cfg3.win w).arr.view.loc (c : Thread nD τ) ↦[(cfg3.win w).arr.view.set]{dat.share w} Fv w : sProp 𝕄))
    (w₁ := 0) (w₂ := 1) (by decide) arrRef_dup arrRef_inj_off ?_ ?_
  · intro w h0 h1
    match w, h0, h1 with
    | 0, h0, _ => exact absurd rfl h0
    | 1, _, h1 => exact absurd rfl h1
    | 2, _, _ =>
      show ((cfg3.win 2).arr.view.loc (c : Thread nD τ) ↦[(cfg3.win 2).arr.view.set]{dat.share 2} Fv 2 : sProp 𝕄) = _
      rw [arr_term c dat 2 Fv, share2, hF 2]
  · show (((c : Thread nD τ).loc (Pipeline.arrRef spec3 0)) ↦{fullShare} V (Pipeline.arrRef spec3 0) : sProp 𝕄)
      ⊣⊢ iprop(((cfg3.win 0).arr.view.loc (c : Thread nD τ) ↦[(cfg3.win 0).arr.view.set]{dat.share 0} Fv 0)
        ∗ ((cfg3.win 1).arr.view.loc (c : Thread nD τ) ↦[(cfg3.win 1).arr.view.set]{dat.share 1} Fv 1))
    rw [arr_term c dat 0 Fv, arr_term c dat 1 Fv, share0, share1, hF 0, hF 1]
    exact pointsTo_share hq

/-- ENTRY, the arrays' part: the core's unscoped buffers at contents `V` are the region's arrays at the proof
    data's entry contents — those being read off `V` (`hA`) — and the unscoped rest. -/
theorem arrays_of_unscopedBufs3 (hq : fullShare ∈ dat.q 0 ·? dat.q 1)
    (V : (b : Ref sig .tc) → Buf (Elt F) ((c : Thread nD τ).loc b))
    (hA : ∀ w, dat.A w = V (Pipeline.arrRef spec3 w)) :
    (unscopedBufs c V : sProp 𝕄) ⊢ iprop(dat.arrays (dat.arrAt · 0) ∗ Pipeline.unscopedRest spec3 c V) := by
  rw [Pipeline.unscopedBufs_split₀ (Ix := Unit) (Name := ℕ) (U := UR sig nD τ) (Lvl := ℕ) cfgs 3 winFacts₀3.arr_unscoped c V]
  exact sep_mono (arrBufs_iff_arrays c dat hq V (dat.arrAt · 0) (fun w => hA w)).1 .rfl

/-- EXIT, the arrays' part: the region's arrays at contents `Fv` and the unscoped rest at `V` are the core's
    unscoped buffers at any valuation `V'` that has the arrays at `Fv` and agrees with `V` off them. -/
theorem unscopedBufs_of_arrays3 (hq : fullShare ∈ dat.q 0 ·? dat.q 1)
    (V V' : (b : Ref sig .tc) → Buf (Elt F) ((c : Thread nD τ).loc b))
    (Fv : (w : Fin cfg3.W) → Buf (Elt F) ((cfg3.win w).arr.view.loc (c : Thread nD τ)))
    (hF : ∀ w, Fv w = V' (Pipeline.arrRef spec3 w))
    (hrest : ∀ b, b ∉ Finset.univ.image (Pipeline.arrRef spec3) → V' b = V b) :
    iprop(dat.arrays Fv ∗ Pipeline.unscopedRest spec3 c V) ⊢ (unscopedBufs c V' : sProp 𝕄) := by
  rw [Pipeline.unscopedBufs_split₀ (Ix := Unit) (Name := ℕ) (U := UR sig nD τ) (Lvl := ℕ) cfgs 3 winFacts₀3.arr_unscoped c V']
  refine sep_mono (arrBufs_iff_arrays c dat hq V' Fv hF).2 (Entails.of_eq ?_)
  unfold Pipeline.unscopedRest
  exact bigSep_congr fun b hb => by rw [hrest b (Finset.mem_sdiff.mp hb).2]

end

/-! ## The same at the pinned configuration (definitionally the region's) -/

section

variable (a : (p : Fin 4) → (pcfgs (F := F) p).Adm) (c : Dev nD)
  (dat : Dat τ (Elt F) Unit ℕ (UR sig nD τ) ℕ (Pipeline.pin (pcfgs (F := F)) a 3) c)

theorem arrays_of_unscopedBufs3_pin (hq : fullShare ∈ dat.q 0 ·? dat.q 1)
    (V : (b : Ref sig .tc) → Buf (Elt F) ((c : Thread nD τ).loc b))
    (hA : ∀ w, dat.A w = V (Pipeline.arrRef (Pipeline.pin (pcfgs (F := F)) a 3).spec w)) :
    (unscopedBufs c V : sProp 𝕄)
      ⊢ iprop(dat.arrays (dat.arrAt · 0) ∗ Pipeline.unscopedRest (Pipeline.pin (pcfgs (F := F)) a 3).spec c V) :=
  arrays_of_unscopedBufs3 (F := F) c dat hq V hA

theorem unscopedBufs_of_arrays3_pin (hq : fullShare ∈ dat.q 0 ·? dat.q 1)
    (V V' : (b : Ref sig .tc) → Buf (Elt F) ((c : Thread nD τ).loc b))
    (Fv : (w : Fin (Pipeline.pin (pcfgs (F := F)) a 3).W) → Buf (Elt F) (((Pipeline.pin (pcfgs (F := F)) a 3).spec w).arr.view.loc (c : Thread nD τ)))
    (hF : ∀ w, Fv w = V' (Pipeline.arrRef (Pipeline.pin (pcfgs (F := F)) a 3).spec w))
    (hrest : ∀ b, b ∉ Finset.univ.image (Pipeline.arrRef (Pipeline.pin (pcfgs (F := F)) a 3).spec) → V' b = V b) :
    iprop(dat.arrays Fv ∗ Pipeline.unscopedRest (Pipeline.pin (pcfgs (F := F)) a 3).spec c V)
      ⊢ (unscopedBufs c V' : sProp 𝕄) :=
  unscopedBufs_of_arrays3 (F := F) c dat hq V V' Fv hF hrest

end

end Cert.KernelIdeal.Gen.Hand

end
-- ==== Proof.Run.lean ====
/-
  The four calls in sequence.

  Between two calls every unscoped buffer of the core holds definite contents: the launch memory, then after each
  call that call's result arrays at what its write-backs leave and every other buffer as before.  Each call is
  entered from those contents — its windows' arrays taken out of the core's buffers, the shared array of the fourth
  call cut in two shares —, runs its grid under its invariant, and is left with the arrays put back.  No call's
  output window names an argument array, so the arguments end as launched: the frame, at any float instance.  The
  run's post names the final contents of every unscoped buffer.
-/
import proofs.«101579_g4002909520353_cont_8to1_b_697_5_alg».proof.Proof.Region0
import proofs.«101579_g4002909520353_cont_8to1_b_697_5_alg».proof.Proof.Region1
import proofs.«101579_g4002909520353_cont_8to1_b_697_5_alg».proof.Proof.Region2
import proofs.«101579_g4002909520353_cont_8to1_b_697_5_alg».proof.Proof.Region3
import proofs.«101579_g4002909520353_cont_8to1_b_697_5_alg».proof.Proof.Shared3
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary: a fold through the four calls -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- An input window's array leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (V0 m ρ) c).arrAt_in w hw _).trans (A_eq0 (V0 m ρ) c w))

/-- After region 1: its arrays at what the pipeline leaves, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (V1 m ρ) c).arrAt_in w hw _).trans (A_eq1 (V1 m ρ) c w))

/-- After region 2: its arrays at what the pipeline leaves, every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg2.W) (hw : (cfg2.win w).isOut = false) :
    W3 m ρ c (Proc.devRef .tc (Pipeline.arrRef spec2 w)) = W2 m ρ c (Proc.devRef .tc (Pipeline.arrRef spec2 w)) :=
  (W3_arr m ρ c w).trans (((dat2 (V2 m ρ) c).arrAt_in w hw _).trans (A_eq2 (V2 m ρ) c w))

/-- After region 3: the output array at what the pipeline leaves, every other buffer as entered (its two input
    windows read one array, which stays as entered). -/
def W4 (c : Dev nD) : Valuation τ sig (Elt F) :=
  Function.update (W3 m ρ c) (Proc.devRef .tc main_v3) ((dat3 (V3 m ρ) c).arrAt 2 cfg3.N)
theorem W4_out (c : Dev nD) : W4 m ρ c (Proc.devRef .tc main_v3) = (dat3 (V3 m ρ) c).arrAt 2 cfg3.N := by
  unfold W4; exact Function.update_self _ _ _
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
theorem hF3 (c : Dev nD) (w : Fin cfg3.W) : (dat3 (V3 m ρ) c).arrAt w cfg3.N = V4 m ρ c (Pipeline.arrRef spec3 w) := by
  match w with
  | ⟨0, _⟩ => exact (((dat3 (V3 m ρ) c).arrAt_in 0 rfl _).trans (A_eq3 (V3 m ρ) c 0)).trans (W4_of_ne m ρ c main_v2 (by decide)).symm
  | ⟨1, _⟩ => exact (((dat3 (V3 m ρ) c).arrAt_in 1 rfl _).trans (A_eq3 (V3 m ρ) c 1)).trans (W4_of_ne m ρ c main_v2 (by decide)).symm
  | ⟨2, _⟩ => exact (W4_out m ρ c).symm
theorem hrest3 (c : Dev nD) : ∀ b, b ∉ Finset.univ.image (Pipeline.arrRef spec3) → V4 m ρ c b = V3 m ρ c b :=
  fun b hb => W4_of_ne m ρ c b fun e => hb (Finset.mem_image.mpr ⟨2, Finset.mem_univ _, e.symm⟩)

/-! ## The arguments end as launched -/
theorem W4_main_arg0 (c : Dev nD) : W4 m ρ c (Proc.devRef .tc main_arg0) = m ((c : Thread nD τ).loc main_arg0) :=
  (W4_of_ne m ρ c main_arg0 (by decide)).trans <| (W3_of_ne m ρ c main_arg0 (by decide)).trans <| (W2_of_ne m ρ c main_arg0 (by decide)).trans <| (W1_in m ρ c 0 rfl).trans rfl
theorem W4_main_arg1 (c : Dev nD) : W4 m ρ c (Proc.devRef .tc main_arg1) = m ((c : Thread nD τ).loc main_arg1) :=
  (W4_of_ne m ρ c main_arg1 (by decide)).trans <| (W3_of_ne m ρ c main_arg1 (by decide)).trans <| (W2_of_ne m ρ c main_arg1 (by decide)).trans <| (W1_in m ρ c 2 rfl).trans rfl
theorem W4_main_arg2 (c : Dev nD) : W4 m ρ c (Proc.devRef .tc main_arg2) = m ((c : Thread nD τ).loc main_arg2) :=
  (W4_of_ne m ρ c main_arg2 (by decide)).trans <| (W3_of_ne m ρ c main_arg2 (by decide)).trans <| (W2_of_ne m ρ c main_arg2 (by decide)).trans <| (W1_in m ρ c 1 rfl).trans rfl
theorem W4_main_arg3 (c : Dev nD) : W4 m ρ c (Proc.devRef .tc main_arg3) = m ((c : Thread nD τ).loc main_arg3) :=
  (W4_of_ne m ρ c main_arg3 (by decide)).trans <| (W3_of_ne m ρ c main_arg3 (by decide)).trans <| (W2_in m ρ c 1 rfl).trans <| (W1_of_ne m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_in m ρ c 1 rfl).trans <| (W2_of_ne m ρ c main_arg4 (by decide)).trans <| (W1_of_ne m ρ c main_arg4 (by decide)).trans rfl

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
abbrev 𝒱₀ : Variants := Variants.none
abbrev L : GSem nD τ sig → Finset Unit := fun _ => ∅
abbrev lv : GSem nD τ sig → Unit → ℕ := fun _ _ => 0
/-- What rides beside the buffers through every region: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- REGION 0 over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W2`, left at `W3`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W3`, left at `W4`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := arrays_of_unscopedBufs3_pin adm c (pdats m ρ 3 c) (halves rfl rfl) (V3 m ρ c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (hout3 (V3 m ρ) c).trans ?_
    unfold Pipeline.ΦA
    iintro ⟨Hr, Hp⟩
    isplitl [Hp]; · iexact Hp
    isplitr; · iempintro
    iexact Hr
  hexit c := by
    have hjoin := unscopedBufs_of_arrays3_pin adm c (pdats m ρ 3 c) (halves rfl rfl) (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The four calls as segments, and the launch -/

abbrev segs : List (Pipeline.Seg (pcfgs (F := F)) adm (pdats m ρ) () defs₀ 𝒱₀ L lv) :=
  [ .region (reg0 m ρ), .region (reg1 m ρ), .region (reg2 m ρ), .region (reg3 m ρ) ]
theorem main_run (c : Dev nD) : main (F := F) c = Pipeline.Seg.run (segs m ρ) :=
  main_segs adm (pdats m ρ) () 𝒱₀ L lv (reg0 m ρ) (reg1 m ρ) (reg2 m ρ) (reg3 m ρ) c

set_option backward.isDefEq.respectTransparency.types false in
/-- THE RUN: from any memory with zero counters, every weakly fair execution of the four calls terminates, nothing
    faulting, and every final state holds each unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_main m ρ)

end Cert.KernelIdeal.Gen.Hand

end
-- ==== Proof.Spec.lean ====
/-
  The specification of the graph-autoencoder decoder, over extended reals, index by index.

  Three graph-convolution layers  Z ↦ adj · tanh (Z · W)  and then the logistic function of the Gram
  matrix  Ẑ · Ẑᵀ.  Matrices are functions of a rank-2 index; a product is the sum over the contracted
  coordinate; `tanh` is the extended-real one (the limits ∓1 at the infinities).  The logistic function is
  written in two ways, `sigK` (one hyperbolic tangent:  ½ · tanh (½ · x) + ½) and `sigR` (one exponential:
  1 / (1 + e⁻ˣ)), and `sig_eq` says they are one function on every extended real.
-/
import Idealize.ShloMosaic.PureOps.Ideal
import Idealize.ShloMosaic.PureOps.Ideal.Laws
import Idealize.ShloMosaic.Lib.ValueIdx

noncomputable section

open scoped BigOperators

namespace Cert.GAE

open Idealize.ShloMosaic Idealize.ShloMosaic.ValueIdx

/-- An `n × k` matrix of extended reals. -/
abbrev Arr (n k : Nat) := (⟨2, ![n, k]⟩ : Shape).Idx → EReal

/-- The matrix product: at (r, c) the sum over `d` of `A (r, d) · B (d, c)`. -/
def mm {n k p : Nat} (A : Arr n k) (B : Arr k p) : Arr n p :=
  fun i => ∑ d : Fin k, A (ix2 (i 0) d) * B (ix2 d (i 1))

/-- `tanh` of every element. -/
def tanhA {n k : Nat} (A : Arr n k) : Arr n k := fun i => Ideal.tanh (A i)

/-- One graph-convolution layer: `adj · tanh (X · W)`. -/
def layer {N a b : Nat} (adj : Arr N N) (X : Arr N a) (W : Arr a b) : Arr N b := mm adj (tanhA (mm X W))

/-- The decoder's embedding: three layers. -/
def zhat (x : Arr 10000 32) (adj : Arr 10000 10000) (W4 : Arr 32 128) (W5 : Arr 128 256) (W6 : Arr 256 128) :
    Arr 10000 128 :=
  layer adj (layer adj (layer adj x W4) W5) W6

/-- The Gram matrix `Z · Zᵀ`: at (r, c) the sum over `k` of `Z (r, k) · Z (c, k)`. -/
def gram {N d : Nat} (Z : Arr N d) : Arr N N :=
  fun i => ∑ k : Fin d, Z (ix2 (i 0) k) * Z (ix2 (i 1) k)

/-- The pattern of one half. -/
def half : EReal := Ideal.ofBits .f32 0x3F000000#32

theorem half_eq : half = ((1 / 2 : ℝ) : EReal) := by
  unfold half
  simp [Ideal.ofBits, Ideal.ieee, -EReal.coe_mul]
  norm_num

/-- The pattern of one is one. -/
theorem one_eq : Ideal.ofBits .f32 0x3F800000#32 = (1 : EReal) := by
  simp [Ideal.ofBits, Ideal.ieee, -EReal.coe_mul]
  norm_num

/-- The logistic function by one hyperbolic tangent: `½ · tanh (½ · x) + ½`. -/
def sigK (x : EReal) : EReal := half * Ideal.tanh (half * x) + half

/-- The logistic function by one exponential: `1 / (1 + e⁻ˣ)`. -/
def sigR (x : EReal) : EReal :=
  Ideal.div (Ideal.ofBits .f32 0x3F800000#32) (Ideal.ofBits .f32 0x3F800000#32 + Ideal.exp (-x))

/-- The exponential form is the extended-real logistic function. -/
theorem sigR_eq_logistic (x : EReal) : sigR x = Ideal.logistic x := by
  unfold sigR Ideal.logistic
  rw [one_eq]

/-- On the reals: `½ · tanh (r / 2) + ½ = 1 / (1 + e⁻ʳ)`. -/
theorem logistic_real (r : ℝ) : 1 / 2 * Real.tanh (1 / 2 * r) + 1 / 2 = (1 + Real.exp (-r))⁻¹ := by
  have hr : r = 1 / 2 * r + 1 / 2 * r := by ring
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  rw [Real.tanh_eq_sinh_div_cosh, Real.sinh_eq, Real.cosh_eq, e1]
  set u := Real.exp (1 / 2 * r) with hu
  set v := Real.exp (-(1 / 2 * r)) with hv
  have hup : 0 < u := Real.exp_pos _
  have hvp : 0 < v := Real.exp_pos _
  have h1 : u + v ≠ 0 := by positivity
  have h2 : 1 + v * v ≠ 0 := by positivity
  field_simp
  nlinarith [e2]

/-- The two forms of the logistic function agree on every extended real: on a real by `logistic_real`; at
    `⊤` both are `1` (`tanh ⊤ = 1`; `e^⊥ = 0`) and at `⊥` both are `0` (`tanh ⊥ = -1`; `1 / ⊤ = 0`). -/
theorem sig_eq (x : EReal) : sigK x = sigR x := by
  rw [sigR_eq_logistic]
  unfold sigK
  rw [half_eq]
  induction x using EReal.rec with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | coe r =>
    rw [← EReal.coe_mul, Ideal.tanh_coe, ← EReal.coe_mul, ← EReal.coe_add, Ideal.logistic_coe, logistic_real]
  | top =>
    rw [EReal.coe_mul_top_of_pos (by norm_num), Ideal.tanh_top, Ideal.logistic_top, mul_one, ← EReal.coe_add]
    norm_num

end Cert.GAE

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«101579_g4002909520353_cont_8to1_b_697_5_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.ValueCommon.lean ====
/-
  Two facts about matrix products as explicit sums, used by every layer.
-/
import proofs.«101579_g4002909520353_cont_8to1_b_697_5_alg».proof.Proof.Spec
import proofs.«101579_g4002909520353_cont_8to1_b_697_5_alg».proof.Proof.LibMatmulRead
import Idealize.ShloMosaic.Lib.ValueIdx

noncomputable section

namespace Cert.KernelIdeal.Gen.Hand

open Idealize.ShloMosaic Idealize.ShloMosaic.ValueIdx Cert.GAE
open scoped BigOperators

theorem mm_eq {n k p : Nat} (A : Arr n k) (B : Arr k p) : Cert.GCN.mm A B = mm A B := rfl
theorem hz : (![0, 0] : Fin 2 → Nat) = fun _ => 0 := funext fun a => by fin_cases a <;> rfl
/-- A row of a product depends on the left factor's same row only. -/
theorem mm_rows {n k p tm : Nat} (A : Arr n k) (B : Arr k p) (Ab : Arr tm k) (r : Fin tm) (r' : Fin n) (q : Fin p)
    (hA : ∀ d, Ab (ix2 r d) = A (ix2 r' d)) : mm Ab B (ix2 r q) = mm A B (ix2 r' q) := by
  unfold mm
  exact Finset.sum_congr rfl fun d _ => by rw [show (ix2 r q : (⟨2, ![tm, p]⟩ : Shape).Idx) 0 = r from rfl, show (ix2 r' q : (⟨2, ![n, p]⟩ : Shape).Idx) 0 = r' from rfl, hA d]; rfl

end Cert.KernelIdeal.Gen.Hand

end
-- ==== Proof.Value0.lean ====
/-
  What call 0 leaves in its result arrays, at exact values.

  A point's block of the result is (its rows of the adjacency matrix) · (the support matrix), and row r of a matrix
  product depends on the left factor's row r only: so the block is the same block of the whole product
  A · tanh(Z · W).  The index maps are decided over the grid: the streamed windows' block index is the point's number
  on the row axis, the whole-array windows' is zero.  The blocks tile the array (row r lies in the block of point
  r / rows-per-block), so the array ends holding the whole product; the re-stored adjacency matrix ends holding the
  adjacency matrix.
-/
import proofs.«101579_g4002909520353_cont_8to1_b_697_5_alg».proof.Proof.Region0
import proofs.«101579_g4002909520353_cont_8to1_b_697_5_alg».proof.Proof.ValueCommon
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GAE Idealize.ShloMosaic.ValueIdx
open scoped BigOperators

/-- The support matrix the first point stores: tanh of features times weights, entry by entry. -/
theorem pay_support0 (x : Vec Ideal S10000x32 .f32) (w : Vec Ideal S32x128 .f32) :
    (k0_pay1 (F := Ideal) x w : Arr 10000 128) = tanhA (mm x w) := by
  funext j
  obtain ⟨p, q, rfl⟩ : ∃ (p : Fin 10000) (q : Fin 128), j = ix2 p q := ⟨j 0, j 1, eq_ix2 j⟩
  unfold k0_pay1
  simp only [shapeCast_self]
  show Ideal.tanh (FloatOps.matmul (F := Ideal) (DotDims.plain 10000 32 128) none x w (constant ⟨2, ![10000, 128]⟩ .f32 0x00000000#32) (ix2 p q)) = Ideal.tanh (mm x w (ix2 p q))
  rw [Cert.GCN.matmul_plain_zero_apply]
  rfl

/-- What a point stores into its result block: its adjacency rows times the support matrix. -/
theorem pay_out0 (a : Vec Ideal S200x10000 .f32) (s : Vec Ideal S10000x128 .bf16) :
    (k0_pay3 (F := Ideal) a s : Arr 200 128) = mm (a : Arr 200 10000) (s : Arr 10000 128) := by
  funext j
  obtain ⟨p, q, rfl⟩ : ∃ (p : Fin 200) (q : Fin 128), j = ix2 p q := ⟨j 0, j 1, eq_ix2 j⟩
  unfold k0_pay3
  show FloatOps.matmul (F := Ideal) (DotDims.plain 200 10000 128) none (k0_pay2 a) s (constant ⟨2, ![200, 128]⟩ .f32 0x00000000#32) (ix2 p q) = mm (a : Arr 200 10000) (s : Arr 10000 128) (ix2 p q)
  rw [Cert.GCN.matmul_plain_zero_apply]
  rfl

section
variable (V : (c : Dev nD) → (b : Ref sig .tc) → Buf (Elt Ideal) ((c : Thread nD τ).loc b))

/-- The printed index maps, decided over the grid: the streamed windows move with the point on the row axis, the
    whole-array windows stay. -/
theorem idx_facts0 : ∀ t : Fin cfg0.N,
    win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- A whole-array window's block is the array. -/
theorem iblk0_0_whole (c : Dev nD) (t : Fin cfg0.N) : (iblk0 V c 0 t : Arr 10000 32) = V c main_arg0 := by
  obtain ⟨-, -, -, -, -, -, e0, e1, -, -⟩ := idx_facts0 t
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 32 + 1 * (y 1).val = (y 1).val; omega

theorem iblk0_1_whole (c : Dev nD) (t : Fin cfg0.N) : (iblk0 V c 1 t : Arr 32 128) = V c main_arg2 := by
  obtain ⟨-, -, -, -, -, -, -, -, e0, e1⟩ := idx_facts0 t
  funext y
  show V c main_arg2 (((cfg0.win 1).blk t).view.emb y) = V c main_arg2 y
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

/-- The adjacency block of point `t` holds rows `200·t …` of the adjacency array. -/
theorem iblk0_2_at (c : Dev nD) (t : Fin cfg0.N) (p : Fin 200) (d : Fin 10000) (h : t.val * 200 + p.val < 10000) :
    (iblk0 V c 2 t : Arr 200 10000) (ix2 p d) = (V c main_arg1 : Arr 10000 10000) (ix2 ⟨t.val * 200 + p.val, h⟩ d) := by
  obtain ⟨e0, e1, -, -, -, -, -, -, -, -⟩ := idx_facts0 t
  show V c main_arg1 (((cfg0.win 2).blk t).view.emb (ix2 p d)) = V c main_arg1 (ix2 ⟨t.val * 200 + p.val, h⟩ d)
  refine congrArg _ (funext fun a => Fin.ext ?_)
  match a with
  | ⟨0, _⟩ => show win0_2.index t (0 : Fin 2) * 200 + 1 * p.val = t.val * 200 + p.val; omega
  | ⟨1, _⟩ => show win0_2.index t (1 : Fin 2) * 10000 + 1 * d.val = d.val; omega

/-- The layer's result as one array: adjacency times tanh of features times weights. -/
abbrev G0 (c : Dev nD) : Arr 10000 128 := layer (V c main_arg1 : Arr 10000 10000) (V c main_arg0 : Arr 10000 32) (V c main_arg2 : Arr 32 128)

/-- What point `t` writes back is block `t` of the layer's result. -/
theorem flushed0_3_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3 S0 scr0
  rw [View.canon_unit_zero hz, View.canon_unit_zero hz]
  simp only [View.ld_unit_zero (S := S200x10000) hz, View.ld_unit_zero (S := S10000x128) hz, View.ld_unit_zero (S := S10000x32) hz, View.ld_unit_zero (S := S32x128) hz]
  have ht : t.val < 50 := lt_of_lt_of_eq t.isLt N_0
  obtain ⟨-, -, e0, e1, -, -, -, -, -, -⟩ := idx_facts0 t
  funext y
  obtain ⟨p, q, rfl⟩ : ∃ (p : Fin 200) (q : Fin 128), y = ix2 p q := ⟨y 0, y 1, eq_ix2 y⟩
  have hp : t.val * 200 + p.val < 10000 := by have := p.isLt; omega
  have hemb : ((cfg0.win 3).blk t).view.emb (ix2 p q) = (ix2 ⟨t.val * 200 + p.val, hp⟩ q : (⟨2, ![10000, 128]⟩ : Shape).Idx) := by
    funext a; apply Fin.ext
    match a with
    | ⟨0, _⟩ => show win0_3.index t (0 : Fin 2) * 200 + 1 * p.val = t.val * 200 + p.val; omega
    | ⟨1, _⟩ => show win0_3.index t (1 : Fin 2) * 128 + 1 * q.val = q.val; omega
  show k0_pay3 (iblk0 V c 2 t) (k0_pay1 (iblk0 V c 0 t0_0) (iblk0 V c 1 t0_0)) (ix2 p q) = G0 V c (((cfg0.win 3).blk t).view.emb (ix2 p q))
  rw [hemb, pay_out0, pay_support0, iblk0_0_whole, iblk0_1_whole]
  exact mm_rows _ _ _ p ⟨t.val * 200 + p.val, hp⟩ q (fun d => iblk0_2_at V c t p d hp)

theorem mem_blk0_3 (t : Fin cfg0.N) (i : S10000x128.Idx) :
    i ∈ ((cfg0.win 3).blk t).view.set ↔ ∀ a : Fin 2, win0_3.index t a * S200x128.size a ≤ (i a).val ∧ (i a).val < win0_3.index t a * S200x128.size a + S200x128.size a := by
  show i ∈ ((View.whole main_v0_0).slice (win0_3.rect t)).set ↔ _
  rw [View.set_slice_whole, Rect.mem_set_unit]
  exact Iff.rfl

/-- Every row of the array lies in the block of the point that handles its group of 200 rows. -/
theorem tiles0_3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 50 := N_0
  have hlt : (i 0).val / 200 < cfg0.N := by rw [hN]; omega
  refine ⟨⟨(i 0).val / 200, hlt⟩, flush0_3 _, ?_⟩
  rw [mem_blk0_3]
  obtain ⟨-, -, e0, e1, -, -, -, -, -, -⟩ := idx_facts0 ⟨(i 0).val / 200, hlt⟩
  intro a
  match a with
  | ⟨0, _⟩ =>
    show win0_3.index ⟨(i 0).val / 200, hlt⟩ (0 : Fin 2) * 200 ≤ (i 0).val ∧ (i 0).val < win0_3.index ⟨(i 0).val / 200, hlt⟩ (0 : Fin 2) * 200 + 200
    rw [e0]; show (i 0).val / 200 * 200 ≤ (i 0).val ∧ (i 0).val < (i 0).val / 200 * 200 + 200; omega
  | ⟨1, _⟩ =>
    show win0_3.index ⟨(i 0).val / 200, hlt⟩ (1 : Fin 2) * 128 ≤ (i 1).val ∧ (i 1).val < win0_3.index ⟨(i 0).val / 200, hlt⟩ (1 : Fin 2) * 128 + 128
    rw [e1]; omega

/-- The call's result array: the layer, as one array of the arrays the call found. -/
theorem final0_3 (c : Dev nD) : (dat0 V c).arrAt 3 cfg0.N = G0 V c :=
  (dat0 V c).arrAt_eq_of_cover 3 (G0 V c) (fun t _ => flushed0_3_eq V c t) (tiles0_3)

theorem flushed0_4_eq (c : Dev nD) (t : Fin cfg0.N) :
    (dat0 V c).flushed 4 t = ((cfg0.win 4).blk t).view.read (Elt Ideal) (V c main_arg1 : Arr 10000 10000) := by
  show (cfg0.win 4).cut (grid0.coords t) ((dat0 V c).after 4 t) = _
  rw [after0_4]
  unfold out0_4
  rw [View.canon_unit_zero hz]
  simp only [View.ld_unit_zero (S := S200x10000) hz]
  have ht : t.val < 50 := lt_of_lt_of_eq t.isLt N_0
  obtain ⟨-, -, -, -, e0, e1, -, -, -, -⟩ := idx_facts0 t
  funext y
  obtain ⟨p, d, rfl⟩ : ∃ (p : Fin 200) (d : Fin 10000), y = ix2 p d := ⟨y 0, y 1, eq_ix2 y⟩
  have hp : t.val * 200 + p.val < 10000 := by have := p.isLt; omega
  have hemb : ((cfg0.win 4).blk t).view.emb (ix2 p d) = (ix2 ⟨t.val * 200 + p.val, hp⟩ d : (⟨2, ![10000, 10000]⟩ : Shape).Idx) := by
    funext a; apply Fin.ext
    match a with
    | ⟨0, _⟩ => show win0_4.index t (0 : Fin 2) * 200 + 1 * p.val = t.val * 200 + p.val; omega
    | ⟨1, _⟩ => show win0_4.index t (1 : Fin 2) * 10000 + 1 * d.val = d.val; omega
  show (iblk0 V c 2 t : Arr 200 10000) (ix2 p d) = (V c main_arg1 : Arr 10000 10000) (((cfg0.win 4).blk t).view.emb (ix2 p d))
  rw [hemb]
  exact iblk0_2_at V c t p d hp

theorem mem_blk0_4 (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v0_1).slice (win0_4.rect t)).set ↔ _
  rw [View.set_slice_whole, Rect.mem_set_unit]
  exact Iff.rfl

/-- Every row of the array lies in the block of the point that handles its group of 200 rows. -/
theorem tiles0_4 (i : S10000x10000.Idx) : ∃ t : Fin cfg0.N, (cfg0.win 4).flush t = true ∧ i ∈ ((cfg0.win 4).blk t).view.set := by
  have hi0 : (i 0).val < 10000 := (i 0).isLt
  have hi1 : (i 1).val < 10000 := (i 1).isLt
  have hN : cfg0.N = 50 := N_0
  have hlt : (i 0).val / 200 < cfg0.N := by rw [hN]; omega
  refine ⟨⟨(i 0).val / 200, hlt⟩, flush0_4 _, ?_⟩
  rw [mem_blk0_4]
  obtain ⟨-, -, -, -, e0, e1, -, -, -, -⟩ := idx_facts0 ⟨(i 0).val / 200, hlt⟩
  intro a
  match a with
  | ⟨0, _⟩ =>
    show win0_4.index ⟨(i 0).val / 200, hlt⟩ (0 : Fin 2) * 200 ≤ (i 0).val ∧ (i 0).val < win0_4.index ⟨(i 0).val / 200, hlt⟩ (0 : Fin 2) * 200 + 200
    rw [e0]; show (i 0).val / 200 * 200 ≤ (i 0).val ∧ (i 0).val < (i 0).val / 200 * 200 + 200; omega
  | ⟨1, _⟩ =>
    show win0_4.index ⟨(i 0).val / 200, hlt⟩ (1 : Fin 2) * 10000 ≤ (i 1).val ∧ (i 1).val < win0_4.index ⟨(i 0).val / 200, hlt⟩ (1 : Fin 2) * 10000 + 10000
    rw [e1]; omega

/-- The first call's second result: the adjacency matrix again (a change of float format changes no value here). -/
theorem final0_4 (c : Dev nD) : (dat0 V c).arrAt 4 cfg0.N = (V c main_arg1 : Arr 10000 10000) :=
  (dat0 V c).arrAt_eq_of_cover 4 _ (fun t _ => flushed0_4_eq V c t) (tiles0_4)

end

end Cert.KernelIdeal.Gen.Hand

end
-- ==== Proof.Value1.lean ====
/-
  What call 1 leaves in its result array, at exact values.

  A point's block of the result is (its rows of the adjacency matrix) · (the support matrix), and row r of a matrix
  product depends on the left factor's row r only: so the block is the same block of the whole product
  A · tanh(Z · W).  The index maps are decided over the grid: the streamed windows' block index is the point's number
  on the row axis, the whole-array windows' is zero.  The blocks tile the array (row r lies in the block of point
  r / rows-per-block), so the array ends holding the whole product.
-/
import proofs.«101579_g4002909520353_cont_8to1_b_697_5_alg».proof.Proof.Region1
import proofs.«101579_g4002909520353_cont_8to1_b_697_5_alg».proof.Proof.ValueCommon
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GAE Idealize.ShloMosaic.ValueIdx
open scoped BigOperators

/-- The support matrix the first point stores: tanh of features times weights, entry by entry. -/
theorem pay_support1 (x : Vec Ideal S10000x128 .f32) (w : Vec Ideal S128x256 .f32) :
    (k1_pay1 (F := Ideal) x w : Arr 10000 256) = tanhA (mm x w) := by
  funext j
  obtain ⟨p, q, rfl⟩ : ∃ (p : Fin 10000) (q : Fin 256), j = ix2 p q := ⟨j 0, j 1, eq_ix2 j⟩
  unfold k1_pay1
  simp only [shapeCast_self]
  show Ideal.tanh (FloatOps.matmul (F := Ideal) (DotDims.plain 10000 128 256) none x w (constant ⟨2, ![10000, 256]⟩ .f32 0x00000000#32) (ix2 p q)) = Ideal.tanh (mm x w (ix2 p q))
  rw [Cert.GCN.matmul_plain_zero_apply]
  rfl

/-- What a point stores into its result block: its adjacency rows times the support matrix. -/
theorem pay_out1 (a : Vec Ideal S400x10000 .bf16) (s : Vec Ideal S10000x256 .bf16) :
    (k1_pay2 (F := Ideal) a s : Arr 400 256) = mm (a : Arr 400 10000) (s : Arr 10000 256) := by
  funext j
  obtain ⟨p, q, rfl⟩ : ∃ (p : Fin 400) (q : Fin 256), j = ix2 p q := ⟨j 0, j 1, eq_ix2 j⟩
  unfold k1_pay2
  simp only [shapeCast_self]
  show FloatOps.matmul (F := Ideal) (DotDims.plain 400 10000 256) none a s (constant ⟨2, ![400, 256]⟩ .f32 0x00000000#32) (ix2 p q) = mm (a : Arr 400 10000) (s : Arr 10000 256) (ix2 p q)
  rw [Cert.GCN.matmul_plain_zero_apply]
  rfl

section
variable (V : (c : Dev nD) → (b : Ref sig .tc) → Buf (Elt Ideal) ((c : Thread nD τ).loc b))

/-- The printed index maps, decided over the grid: the streamed windows move with the point on the row axis, the
    whole-array windows stay. -/
theorem idx_facts1 : ∀ t : Fin cfg1.N,
    win1_2.index t (0 : Fin 2) = t.val ∧ win1_2.index t (1 : Fin 2) = 0
    ∧ win1_3.index t (0 : Fin 2) = t.val ∧ win1_3.index t (1 : Fin 2) = 0
    ∧ win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- A whole-array window's block is the array. -/
theorem iblk1_0_whole (c : Dev nD) (t : Fin cfg1.N) : (iblk1 V c 0 t : Arr 10000 128) = V c main_v0_0 := by
  obtain ⟨-, -, -, -, e0, e1, -, -⟩ := idx_facts1 t
  funext y
  show V c main_v0_0 (((cfg1.win 0).blk t).view.emb y) = V c main_v0_0 y
  refine congrArg _ (funext fun a => Fin.ext ?_)
  match a with
  | ⟨0, _⟩ => show win1_0.index t (0 : Fin 2) * 10000 + 1 * (y 0).val = (y 0).val; omega
  | ⟨1, _⟩ => show win1_0.index t (1 : Fin 2) * 128 + 1 * (y 1).val = (y 1).val; omega

theorem iblk1_1_whole (c : Dev nD) (t : Fin cfg1.N) : (iblk1 V c 1 t : Arr 128 256) = V c main_arg3 := by
  obtain ⟨-, -, -, -, -, -, e0, e1⟩ := idx_facts1 t
  funext y
  show V c main_arg3 (((cfg1.win 1).blk t).view.emb y) = V c main_arg3 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 256 + 1 * (y 1).val = (y 1).val; omega

/-- The adjacency block of point `t` holds rows `400·t …` of the adjacency array. -/
theorem iblk1_2_at (c : Dev nD) (t : Fin cfg1.N) (p : Fin 400) (d : Fin 10000) (h : t.val * 400 + p.val < 10000) :
    (iblk1 V c 2 t : Arr 400 10000) (ix2 p d) = (V c main_v0_1 : Arr 10000 10000) (ix2 ⟨t.val * 400 + p.val, h⟩ d) := by
  obtain ⟨e0, e1, -, -, -, -, -, -⟩ := idx_facts1 t
  show V c main_v0_1 (((cfg1.win 2).blk t).view.emb (ix2 p d)) = V c main_v0_1 (ix2 ⟨t.val * 400 + p.val, h⟩ d)
  refine congrArg _ (funext fun a => Fin.ext ?_)
  match a with
  | ⟨0, _⟩ => show win1_2.index t (0 : Fin 2) * 400 + 1 * p.val = t.val * 400 + p.val; omega
  | ⟨1, _⟩ => show win1_2.index t (1 : Fin 2) * 10000 + 1 * d.val = d.val; omega

/-- The layer's result as one array: adjacency times tanh of features times weights. -/
abbrev G1 (c : Dev nD) : Arr 10000 256 := layer (V c main_v0_1 : Arr 10000 10000) (V c main_v0_0 : Arr 10000 128) (V c main_arg3 : Arr 128 256)

/-- What point `t` writes back is block `t` of the layer's result. -/
theorem flushed1_3_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3 S1 scr1
  rw [View.canon_unit_zero hz, View.canon_unit_zero hz]
  simp only [View.ld_unit_zero (S := S400x10000) hz, View.ld_unit_zero (S := S10000x256) hz, View.ld_unit_zero (S := S10000x128) hz, View.ld_unit_zero (S := S128x256) hz]
  have ht : t.val < 25 := lt_of_lt_of_eq t.isLt N_1
  obtain ⟨-, -, e0, e1, -, -, -, -⟩ := idx_facts1 t
  funext y
  obtain ⟨p, q, rfl⟩ : ∃ (p : Fin 400) (q : Fin 256), y = ix2 p q := ⟨y 0, y 1, eq_ix2 y⟩
  have hp : t.val * 400 + p.val < 10000 := by have := p.isLt; omega
  have hemb : ((cfg1.win 3).blk t).view.emb (ix2 p q) = (ix2 ⟨t.val * 400 + p.val, hp⟩ q : (⟨2, ![10000, 256]⟩ : Shape).Idx) := by
    funext a; apply Fin.ext
    match a with
    | ⟨0, _⟩ => show win1_3.index t (0 : Fin 2) * 400 + 1 * p.val = t.val * 400 + p.val; omega
    | ⟨1, _⟩ => show win1_3.index t (1 : Fin 2) * 256 + 1 * q.val = q.val; omega
  show k1_pay2 (iblk1 V c 2 t) (k1_pay1 (iblk1 V c 0 t0_1) (iblk1 V c 1 t0_1)) (ix2 p q) = G1 V c (((cfg1.win 3).blk t).view.emb (ix2 p q))
  rw [hemb, pay_out1, pay_support1, iblk1_0_whole, iblk1_1_whole]
  exact mm_rows _ _ _ p ⟨t.val * 400 + p.val, hp⟩ q (fun d => iblk1_2_at V c t p d hp)

theorem mem_blk1_3 (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v1).slice (win1_3.rect t)).set ↔ _
  rw [View.set_slice_whole, Rect.mem_set_unit]
  exact Iff.rfl

/-- Every row of the array lies in the block of the point that handles its group of 400 rows. -/
theorem tiles1_3 (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 25 := N_1
  have hlt : (i 0).val / 400 < cfg1.N := by rw [hN]; omega
  refine ⟨⟨(i 0).val / 400, hlt⟩, flush1_3 _, ?_⟩
  rw [mem_blk1_3]
  obtain ⟨-, -, e0, e1, -, -, -, -⟩ := idx_facts1 ⟨(i 0).val / 400, hlt⟩
  intro a
  match a with
  | ⟨0, _⟩ =>
    show win1_3.index ⟨(i 0).val / 400, hlt⟩ (0 : Fin 2) * 400 ≤ (i 0).val ∧ (i 0).val < win1_3.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win1_3.index ⟨(i 0).val / 400, hlt⟩ (1 : Fin 2) * 256 ≤ (i 1).val ∧ (i 1).val < win1_3.index ⟨(i 0).val / 400, hlt⟩ (1 : Fin 2) * 256 + 256
    rw [e1]; omega

/-- The call's result array: the layer, as one array of the arrays the call found. -/
theorem final1_3 (c : Dev nD) : (dat1 V c).arrAt 3 cfg1.N = G1 V c :=
  (dat1 V c).arrAt_eq_of_cover 3 (G1 V c) (fun t _ => flushed1_3_eq V c t) (tiles1_3)

end

end Cert.KernelIdeal.Gen.Hand

end
-- ==== Proof.Value2.lean ====
/-
  What call 2 leaves in its result array, at exact values.

  A point's block of the result is (its rows of the adjacency matrix) · (the support matrix), and row r of a matrix
  product depends on the left factor's row r only: so the block is the same block of the whole product
  A · tanh(Z · W).  The index maps are decided over the grid: the streamed windows' block index is the point's number
  on the row axis, the whole-array windows' is zero.  The blocks tile the array (row r lies in the block of point
  r / rows-per-block), so the array ends holding the whole product.
-/
import proofs.«101579_g4002909520353_cont_8to1_b_697_5_alg».proof.Proof.Region2
import proofs.«101579_g4002909520353_cont_8to1_b_697_5_alg».proof.Proof.ValueCommon
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GAE Idealize.ShloMosaic.ValueIdx
open scoped BigOperators

/-- The support matrix the first point stores: tanh of features times weights, entry by entry. -/
theorem pay_support2 (x : Vec Ideal S10000x256 .f32) (w : Vec Ideal S256x128 .f32) :
    (k2_pay1 (F := Ideal) x w : Arr 10000 128) = tanhA (mm x w) := by
  funext j
  obtain ⟨p, q, rfl⟩ : ∃ (p : Fin 10000) (q : Fin 128), j = ix2 p q := ⟨j 0, j 1, eq_ix2 j⟩
  unfold k2_pay1
  simp only [shapeCast_self]
  show Ideal.tanh (FloatOps.matmul (F := Ideal) (DotDims.plain 10000 256 128) none x w (constant ⟨2, ![10000, 128]⟩ .f32 0x00000000#32) (ix2 p q)) = Ideal.tanh (mm x w (ix2 p q))
  rw [Cert.GCN.matmul_plain_zero_apply]
  rfl

/-- What a point stores into its result block: its adjacency rows times the support matrix. -/
theorem pay_out2 (a : Vec Ideal S400x10000 .bf16) (s : Vec Ideal S10000x128 .bf16) :
    (k2_pay2 (F := Ideal) a s : Arr 400 128) = mm (a : Arr 400 10000) (s : Arr 10000 128) := by
  funext j
  obtain ⟨p, q, rfl⟩ : ∃ (p : Fin 400) (q : Fin 128), j = ix2 p q := ⟨j 0, j 1, eq_ix2 j⟩
  unfold k2_pay2
  simp only [shapeCast_self]
  show FloatOps.matmul (F := Ideal) (DotDims.plain 400 10000 128) none a s (constant ⟨2, ![400, 128]⟩ .f32 0x00000000#32) (ix2 p q) = mm (a : Arr 400 10000) (s : Arr 10000 128) (ix2 p q)
  rw [Cert.GCN.matmul_plain_zero_apply]
  rfl

section
variable (V : (c : Dev nD) → (b : Ref sig .tc) → Buf (Elt Ideal) ((c : Thread nD τ).loc b))

/-- The printed index maps, decided over the grid: the streamed windows move with the point on the row axis, the
    whole-array windows stay. -/
theorem idx_facts2 : ∀ t : Fin cfg2.N,
    win2_2.index t (0 : Fin 2) = t.val ∧ win2_2.index t (1 : Fin 2) = 0
    ∧ win2_3.index t (0 : Fin 2) = t.val ∧ win2_3.index t (1 : Fin 2) = 0
    ∧ win2_0.index t (0 : Fin 2) = 0 ∧ win2_0.index t (1 : Fin 2) = 0
    ∧ win2_1.index t (0 : Fin 2) = 0 ∧ win2_1.index t (1 : Fin 2) = 0 :=
  (by decide +kernel : ∀ t : Fin grid2.N, _)

/-- A whole-array window's block is the array. -/
theorem iblk2_0_whole (c : Dev nD) (t : Fin cfg2.N) : (iblk2 V c 0 t : Arr 10000 256) = V c main_v1 := by
  obtain ⟨-, -, -, -, e0, e1, -, -⟩ := idx_facts2 t
  funext y
  show V c main_v1 (((cfg2.win 0).blk t).view.emb y) = V c main_v1 y
  refine congrArg _ (funext fun a => Fin.ext ?_)
  match a with
  | ⟨0, _⟩ => show win2_0.index t (0 : Fin 2) * 10000 + 1 * (y 0).val = (y 0).val; omega
  | ⟨1, _⟩ => show win2_0.index t (1 : Fin 2) * 256 + 1 * (y 1).val = (y 1).val; omega

theorem iblk2_1_whole (c : Dev nD) (t : Fin cfg2.N) : (iblk2 V c 1 t : Arr 256 128) = V c main_arg4 := by
  obtain ⟨-, -, -, -, -, -, e0, e1⟩ := idx_facts2 t
  funext y
  show V c main_arg4 (((cfg2.win 1).blk t).view.emb y) = V c main_arg4 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- The adjacency block of point `t` holds rows `400·t …` of the adjacency array. -/
theorem iblk2_2_at (c : Dev nD) (t : Fin cfg2.N) (p : Fin 400) (d : Fin 10000) (h : t.val * 400 + p.val < 10000) :
    (iblk2 V c 2 t : Arr 400 10000) (ix2 p d) = (V c main_v0_1 : Arr 10000 10000) (ix2 ⟨t.val * 400 + p.val, h⟩ d) := by
  obtain ⟨e0, e1, -, -, -, -, -, -⟩ := idx_facts2 t
  show V c main_v0_1 (((cfg2.win 2).blk t).view.emb (ix2 p d)) = V c main_v0_1 (ix2 ⟨t.val * 400 + p.val, h⟩ d)
  refine congrArg _ (funext fun a => Fin.ext ?_)
  match a with
  | ⟨0, _⟩ => show win2_2.index t (0 : Fin 2) * 400 + 1 * p.val = t.val * 400 + p.val; omega
  | ⟨1, _⟩ => show win2_2.index t (1 : Fin 2) * 10000 + 1 * d.val = d.val; omega

/-- The layer's result as one array: adjacency times tanh of features times weights. -/
abbrev G2 (c : Dev nD) : Arr 10000 128 := layer (V c main_v0_1 : Arr 10000 10000) (V c main_v1 : Arr 10000 256) (V c main_arg4 : Arr 256 128)

/-- What point `t` writes back is block `t` of the layer's result. -/
theorem flushed2_3_eq (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3 S2 scr2
  rw [View.canon_unit_zero hz, View.canon_unit_zero hz]
  simp only [View.ld_unit_zero (S := S400x10000) hz, View.ld_unit_zero (S := S10000x128) hz, View.ld_unit_zero (S := S10000x256) hz, View.ld_unit_zero (S := S256x128) hz]
  have ht : t.val < 25 := lt_of_lt_of_eq t.isLt N_2
  obtain ⟨-, -, e0, e1, -, -, -, -⟩ := idx_facts2 t
  funext y
  obtain ⟨p, q, rfl⟩ : ∃ (p : Fin 400) (q : Fin 128), y = ix2 p q := ⟨y 0, y 1, eq_ix2 y⟩
  have hp : t.val * 400 + p.val < 10000 := by have := p.isLt; omega
  have hemb : ((cfg2.win 3).blk t).view.emb (ix2 p q) = (ix2 ⟨t.val * 400 + p.val, hp⟩ q : (⟨2, ![10000, 128]⟩ : Shape).Idx) := by
    funext a; apply Fin.ext
    match a with
    | ⟨0, _⟩ => show win2_3.index t (0 : Fin 2) * 400 + 1 * p.val = t.val * 400 + p.val; omega
    | ⟨1, _⟩ => show win2_3.index t (1 : Fin 2) * 128 + 1 * q.val = q.val; omega
  show k2_pay2 (iblk2 V c 2 t) (k2_pay1 (iblk2 V c 0 t0_2) (iblk2 V c 1 t0_2)) (ix2 p q) = G2 V c (((cfg2.win 3).blk t).view.emb (ix2 p q))
  rw [hemb, pay_out2, pay_support2, iblk2_0_whole, iblk2_1_whole]
  exact mm_rows _ _ _ p ⟨t.val * 400 + p.val, hp⟩ q (fun d => iblk2_2_at V c t p d hp)

theorem mem_blk2_3 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v2).slice (win2_3.rect t)).set ↔ _
  rw [View.set_slice_whole, Rect.mem_set_unit]
  exact Iff.rfl

/-- Every row of the array lies in the block of the point that handles its group of 400 rows. -/
theorem tiles2_3 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have hN : cfg2.N = 25 := N_2
  have hlt : (i 0).val / 400 < cfg2.N := by rw [hN]; omega
  refine ⟨⟨(i 0).val / 400, hlt⟩, flush2_3 _, ?_⟩
  rw [mem_blk2_3]
  obtain ⟨-, -, e0, e1, -, -, -, -⟩ := idx_facts2 ⟨(i 0).val / 400, hlt⟩
  intro a
  match a with
  | ⟨0, _⟩ =>
    show win2_3.index ⟨(i 0).val / 400, hlt⟩ (0 : Fin 2) * 400 ≤ (i 0).val ∧ (i 0).val < win2_3.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win2_3.index ⟨(i 0).val / 400, hlt⟩ (1 : Fin 2) * 128 ≤ (i 1).val ∧ (i 1).val < win2_3.index ⟨(i 0).val / 400, hlt⟩ (1 : Fin 2) * 128 + 128
    rw [e1]; omega

/-- The call's result array: the layer, as one array of the arrays the call found. -/
theorem final2_3 (c : Dev nD) : (dat2 V c).arrAt 3 cfg2.N = G2 V c :=
  (dat2 V c).arrAt_eq_of_cover 3 (G2 V c) (fun t _ => flushed2_3_eq V c t) (tiles2_3)

end

end Cert.KernelIdeal.Gen.Hand

end
-- ==== Proof.Value3.lean ====
/-
  The last region's output, as one function of the embedding it reads.

  The region's two input windows read the embedding Ẑ (a 10000 × 128 array): window 0 a block of 400 rows per
  grid point, window 1 the whole array, from which the first point stores the transpose Ẑᵀ in a scratch buffer
  that every point reads. Point t computes, for its 400 rows p and every column j,
      ½ · tanh (½ · Σₖ Ẑ(400 t + p, k) · Ẑᵀ(k, j)) + ½ ,
  which is the logistic function (its one-tanh form) of the Gram matrix Ẑ · Ẑᵀ at (400 t + p, j), and writes
  it to rows 400 t … 400 t + 399 of the output. The 25 points' blocks tile the 10000 rows, so the output array
  ends as  i ↦ sigK (gram Ẑ i).
-/
import proofs.«101579_g4002909520353_cont_8to1_b_697_5_alg».proof.Proof.Region3
import proofs.«101579_g4002909520353_cont_8to1_b_697_5_alg».proof.Proof.Spec
import proofs.«101579_g4002909520353_cont_8to1_b_697_5_alg».proof.Proof.LibMatmulRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Gen.Hand

open Idealize.ShloMosaic Idealize.ShloMosaic.TcCoe Idealize.SL.Sem Idealize.ShloMosaic.ValueIdx
open Idealize.ShloMosaic.Pipeline (Dat)
open Cert.GAE

/-! ## The payloads at an element -/

/-- The printed dimension numbers are the plain ones: rows by contraction, contraction by columns. -/
theorem dot3_plain : dot_S400x128_S128x10000_S400x10000_1_0_0_1_n_n = DotDims.plain 400 128 10000 := rfl

/-- What the first point stores in the scratch: the transpose. -/
theorem pay1_apply (z : Vec Ideal S10000x128 .f32) (k : Fin 128) (j : Fin 10000) :
    k3_pay1 (F := Ideal) z (ix2 k j) = z (ix2 j k) := by
  unfold k3_pay1
  rw [shapeCast_self, shapeCast_self]
  exact transpose_apply [1, 0] z transposes_S10000x128_p1_0_S128x10000 (ix2 k j) (ix2 j k)
    (fun b => match b with | ⟨0, _⟩ => rfl | ⟨1, _⟩ => rfl)

/-- The product of a block of rows with the scratch, at an element: the sum over the contracted coordinate. -/
theorem matmul3_apply (zb : Vec Ideal S400x128 .f32) (s : Vec Ideal S128x10000 .bf16) (p : Fin 400) (q : Fin 10000) :
    matmul (F := Ideal) (φ₁ := .bf16) (φ₂ := .bf16) dot_S400x128_S128x10000_S400x10000_1_0_0_1_n_n none
        (truncf .bf16 (shapeCast S400x128 zb shapeCasts_S400x128_S400x128) bitsLt_bf16_f32) s
        (constant S400x10000 .f32 0x00000000#32) (ix2 p q)
      = ∑ k : Fin 128, zb (ix2 p k) * s (ix2 k q) := by
  rw [shapeCast_self, dot3_plain]
  exact Cert.GCN.matmul_plain_zero_apply none (truncf .bf16 zb bitsLt_bf16_f32) s p q

/-- What a point stores in the output block: the one-tanh logistic function of that sum. -/
theorem pay2_apply (zb : Vec Ideal S400x128 .f32) (s : Vec Ideal S128x10000 .bf16) (p : Fin 400) (q : Fin 10000) :
    k3_pay2 (F := Ideal) zb s (ix2 p q) = sigK (∑ k : Fin 128, zb (ix2 p k) * s (ix2 k q)) := by
  rw [← matmul3_apply zb s p q]
  rfl

/-! ## The output array as one function -/

section

variable (V : (c : Dev nD) → (b : Ref sig .tc) → Buf (Elt Ideal) ((c : Thread nD τ).loc b)) (c : Dev nD)

/-- The embedding the region reads. -/
abbrev Z3 : Arr 10000 128 := V c main_v2

/-- What the output array ends holding: the logistic function of the embedding's Gram matrix. -/
abbrev G3 : S10000x10000.Idx → EReal := fun i => sigK (gram (Z3 V c) i)

theorem hz3 : (![0, 0] : Fin 2 → Nat) = fun _ => 0 := funext fun a => by fin_cases a <;> rfl

/-- The printed index maps, decided over the grid: the row-block windows 0 and 2 sit at block `t` of the rows and
    block 0 of the columns; window 1 (the whole array) at block 0 of both. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- Every point writes its output block back. -/
theorem flush3_2 : ∀ t : Fin cfg3.N, (cfg3.win 2).flush t = true :=
  (by decide +kernel : ∀ t : Fin grid3.N, _)

/-- Window 0's block at point `t`, at an element: rows `400 t + p`. -/
theorem iblk3_0_apply (t : Fin cfg3.N) (p : Fin 400) (k : Fin 128) (h : t.val * 400 + p.val < 10000) :
    iblk3 V c 0 t (ix2 p k) = Z3 V c (ix2 ⟨t.val * 400 + p.val, h⟩ k) := by
  obtain ⟨e0, e1, -, -, -, -⟩ := idx_facts3 t
  show V c main_v2 (((cfg3.win 0).blk t).view.emb (ix2 p k)) = _
  refine congrArg (V c main_v2) (funext fun a => Fin.ext ?_)
  match a with
  | ⟨0, _⟩ => show win3_0.index t (0 : Fin 2) * 400 + 1 * p.val = t.val * 400 + p.val; omega
  | ⟨1, _⟩ => show win3_0.index t (1 : Fin 2) * 128 + 1 * k.val = k.val; omega

/-- Window 1's block at the first point is the whole array. -/
theorem iblk3_1_apply (j : Fin 10000) (k : Fin 128) :
    iblk3 V c 1 t0_3 (ix2 j k) = Z3 V c (ix2 j k) := by
  obtain ⟨-, -, e2, e3, -, -⟩ := idx_facts3 t0_3
  show V c main_v2 (((cfg3.win 1).blk t0_3).view.emb (ix2 j k)) = _
  refine congrArg (V c main_v2) (funext fun a => Fin.ext ?_)
  match a with
  | ⟨0, _⟩ => show win3_1.index t0_3 (0 : Fin 2) * 10000 + 1 * j.val = j.val; omega
  | ⟨1, _⟩ => show win3_1.index t0_3 (1 : Fin 2) * 128 + 1 * k.val = k.val; omega

/-- WHAT POINT `t` WRITES BACK is block `t` of `G3`. -/
theorem flushed3_eq (t : Fin cfg3.N) :
    (dat3 (F := Ideal) V c).flushed 2 t = ((cfg3.win 2).blk t).view.read (Elt Ideal) (G3 V c) := by
  show (cfg3.win 2).cut (grid3.coords t) ((dat3 V c).after 2 t) = _
  rw [after3_2]
  unfold out3_2 S3 scr3
  rw [View.canon_unit_zero hz3, View.canon_unit_zero hz3]
  simp only [View.ld_unit_zero (S := S400x128) hz3, View.ld_unit_zero (S := S128x10000) hz3,
    View.ld_unit_zero (S := S10000x128) hz3]
  obtain ⟨-, -, -, -, e4, e5⟩ := idx_facts3 t
  funext j
  obtain ⟨p, q, rfl⟩ : ∃ (p : Fin 400) (q : Fin 10000), j = ix2 p q := ⟨j 0, j 1, eq_ix2 (n0 := 400) (n1 := 10000) j⟩
  have hp : t.val * 400 + p.val < 10000 := by have := t.isLt; have hN : cfg3.N = 25 := N_3; have := p.isLt; omega
  have hemb : ((cfg3.win 2).blk t).view.emb (ix2 p q) = ix2 (⟨t.val * 400 + p.val, hp⟩ : Fin 10000) q := by
    funext a; apply Fin.ext
    match a with
    | ⟨0, _⟩ => show win3_2.index t (0 : Fin 2) * 400 + 1 * p.val = t.val * 400 + p.val; omega
    | ⟨1, _⟩ => show win3_2.index t (1 : Fin 2) * 10000 + 1 * q.val = q.val; omega
  show k3_pay2 (iblk3 V c 0 t) (k3_pay1 (iblk3 V c 1 t0_3)) (ix2 p q) = G3 V c (((cfg3.win 2).blk t).view.emb (ix2 p q))
  rw [hemb]
  refine (pay2_apply _ _ p q).trans ?_
  show sigK _ = sigK (gram (Z3 V c) (ix2 (⟨t.val * 400 + p.val, hp⟩ : Fin 10000) q))
  refine congrArg sigK (Finset.sum_congr rfl fun k _ => ?_)
  rw [pay1_apply, iblk3_0_apply V c t p k hp, iblk3_1_apply V c q k]

/-- An index of the array is in point `t`'s block iff each coordinate is in the block's range on its axis. -/
theorem mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

/-- The 25 blocks of 400 rows tile the array: row `r` is in the block of point `r / 400`. -/
theorem cover3 (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  have hN : cfg3.N = 25 := N_3
  let t : Fin cfg3.N := ⟨(i 0).val / 400, by omega⟩
  obtain ⟨-, -, -, -, e4, e5⟩ := idx_facts3 t
  have ht : t.val = (i 0).val / 400 := rfl
  refine ⟨t, flush3_2 t, ?_⟩
  rw [mem_blk3]
  intro a
  match a with
  | ⟨0, _⟩ => show win3_2.index t (0 : Fin 2) * 400 ≤ (i 0).val ∧ (i 0).val < win3_2.index t (0 : Fin 2) * 400 + 400; omega
  | ⟨1, _⟩ => show win3_2.index t (1 : Fin 2) * 10000 ≤ (i 1).val ∧ (i 1).val < win3_2.index t (1 : Fin 2) * 10000 + 10000; omega

/-- THE ARRAY after the region: the logistic function of the Gram matrix of the embedding the region read. -/
theorem final3 :
    (dat3 (F := Ideal) V c).arrAt 2 cfg3.N = (fun i => sigK (gram (V c main_v2 : Arr 10000 128) i)) :=
  (dat3 (F := Ideal) V c).arrAt_eq_of_cover 2 (G3 V c) (fun t _ => flushed3_eq V c t) (cover3)

end

end Cert.KernelIdeal.Gen.Hand

end
-- ==== Proof.Result.lean ====
/-
  The run, read at exact values: after the four calls the first result holds the three layers applied to the
  arguments and the second the logistic function, in its tanh form, of that array's Gram matrix.  Each call's result
  is a function of the arrays the call found; the arrays a later call finds are the earlier calls' results and the
  untouched arguments.
-/
import proofs.«101579_g4002909520353_cont_8to1_b_697_5_alg».proof.Proof.Run
import proofs.«101579_g4002909520353_cont_8to1_b_697_5_alg».proof.Proof.Value0
import proofs.«101579_g4002909520353_cont_8to1_b_697_5_alg».proof.Proof.Value1
import proofs.«101579_g4002909520353_cont_8to1_b_697_5_alg».proof.Proof.Value2
import proofs.«101579_g4002909520353_cont_8to1_b_697_5_alg».proof.Proof.Value3
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Gen.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GAE Idealize.ShloMosaic.ValueIdx
open scoped BigOperators

variable (m : (ℓ : Loc nD τ sig) → Buf (Elt Ideal) ℓ) (ρ : Dev nD → PrngReg)

/-! ## The buffers after each call, as whole arrays of the launch memory -/

/-- After the first call: the first layer. -/
theorem W1_z1 (c : Dev nD) : (W1 m ρ c (Proc.devRef .tc main_v0_0) : Arr 10000 128)
    = layer (m ((c : Thread nD τ).loc main_arg1)) (m ((c : Thread nD τ).loc main_arg0)) (m ((c : Thread nD τ).loc main_arg2)) :=
  (W1_arr m ρ c 3).trans (final0_3 (V0 m ρ) c)
/-- and the adjacency matrix's copy. -/
theorem W1_adj (c : Dev nD) : (W1 m ρ c (Proc.devRef .tc main_v0_1) : Arr 10000 10000) = m ((c : Thread nD τ).loc main_arg1) :=
  (W1_arr m ρ c 4).trans (final0_4 (V0 m ρ) c)

/-- After the second call: the second layer of the first. -/
theorem W2_z2 (c : Dev nD) : (W2 m ρ c (Proc.devRef .tc main_v1) : Arr 10000 256)
    = layer (m ((c : Thread nD τ).loc main_arg1)) (layer (m ((c : Thread nD τ).loc main_arg1)) (m ((c : Thread nD τ).loc main_arg0)) (m ((c : Thread nD τ).loc main_arg2))) (m ((c : Thread nD τ).loc main_arg3)) := by
  refine (W2_arr m ρ c 3).trans ((final1_3 (V1 m ρ) c).trans ?_)
  show layer (W1 m ρ c (Proc.devRef .tc main_v0_1) : Arr 10000 10000) (W1 m ρ c (Proc.devRef .tc main_v0_0) : Arr 10000 128) (W1 m ρ c (Proc.devRef .tc main_arg3) : Arr 128 256) = _
  rw [W1_adj, W1_z1, W1_of_ne m ρ c main_arg3 (by decide)]

theorem W2_adj (c : Dev nD) : (W2 m ρ c (Proc.devRef .tc main_v0_1) : Arr 10000 10000) = m ((c : Thread nD τ).loc main_arg1) :=
  (W2_in m ρ c 2 rfl).trans (W1_adj m ρ c)

/-- After the third call: the decoder's output. -/
theorem W3_z3 (c : Dev nD) : (W3 m ρ c (Proc.devRef .tc main_v2) : Arr 10000 128) = zhat (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 3).trans ((final2_3 (V2 m ρ) c).trans ?_)
  show layer (W2 m ρ c (Proc.devRef .tc main_v0_1) : Arr 10000 10000) (W2 m ρ c (Proc.devRef .tc main_v1) : Arr 10000 256) (W2 m ρ c (Proc.devRef .tc main_arg4) : Arr 256 128) = _
  rw [W2_adj, W2_z2, W2_of_ne m ρ c main_arg4 (by decide), W1_of_ne m ρ c main_arg4 (by decide)]
  rfl

theorem W4_z3 (c : Dev nD) : (W4 m ρ c (Proc.devRef .tc main_v2) : Arr 10000 128) = zhat (m ((c : Thread nD τ).loc main_arg0)) (m ((c : Thread nD τ).loc main_arg1)) (m ((c : Thread nD τ).loc main_arg2)) (m ((c : Thread nD τ).loc main_arg3)) (m ((c : Thread nD τ).loc main_arg4)) :=
  (W4_of_ne m ρ c main_v2 (by decide)).trans (W3_z3 m ρ c)

/-- After the fourth call: the logistic function, in the kernel's tanh form, of the output's Gram matrix. -/
theorem W4_sig (c : Dev nD) : (W4 m ρ c (Proc.devRef .tc main_v3) : Arr 10000 10000)
    = fun i => sigK (gram (zhat (m ((c : Thread nD τ).loc main_arg0)) (m ((c : Thread nD τ).loc main_arg1)) (m ((c : Thread nD τ).loc main_arg2)) (m ((c : Thread nD τ).loc main_arg3)) (m ((c : Thread nD τ).loc main_arg4))) i) := by
  refine (W4_out m ρ c).trans ((final3 (V3 m ρ) c).trans ?_)
  show (fun i => sigK (gram (W3 m ρ c (Proc.devRef .tc main_v2) : Arr 10000 128) i)) = _
  rw [W3_z3]

/-- THE RUN, READ: both results as functions of the argument arrays, the arguments unchanged. -/
theorem value_run : θ_run defs (onTc (τ := τ) (main (F := Ideal))) ⟨m, fun _ => 0, ρ⟩ (fun r => ∀ c : Dev nD,
      r.2.mem ((c.tc : Thread nD τ).loc main_v2) = zhat (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3) = (fun i => sigK (gram (zhat (m ((c : Thread nD τ).loc main_arg0)) (m ((c : Thread nD τ).loc main_arg1)) (m ((c : Thread nD τ).loc main_arg2)) (m ((c : Thread nD τ).loc main_arg3)) (m ((c : Thread nD τ).loc main_arg4))) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      (h c _ (mem_uc main_v2 (by decide))).trans (W4_z3 m ρ c),
      (h c _ (mem_uc main_v3 (by decide))).trans (W4_sig m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_main m ρ)

end Cert.KernelIdeal.Gen.Hand

end
-- ==== Proof.RefValue.lean ====
/-
  The reference program's two results, at the extended reals, are the specification's functions of the
  argument arrays: the first result is the decoder's embedding `zhat`, the second the logistic function
  (its one-exponential form) of the embedding's Gram matrix, element by element.

  Each matrix product of the reference is read at an index as the sum over the contracted coordinate and
  identified with `mm`; the transposed second operand of the last product turns that product into the Gram
  matrix; the pointwise tail  1 / (1 + e^(−x))  is `sigR`.
-/
import proofs.«101579_g4002909520353_cont_8to1_b_697_5_alg».proof.Proof.Gen.ReferenceIdeal.Read
import proofs.«101579_g4002909520353_cont_8to1_b_697_5_alg».proof.Proof.Spec

noncomputable section

open scoped BigOperators

namespace Cert.GAE.Ref

open Idealize.ShloMosaic Idealize.ShloMosaic.TcCoe Idealize.SL.Sem Idealize.ShloMosaic.ValueIdx
open Cert.ReferenceIdeal Cert.ReferenceIdeal.Gen Cert.ReferenceIdeal.Read Cert.GAE

/-- A sum of products whose two index functions are "row of the result, contracted coordinate" and
    "contracted coordinate, column of the result" is the matrix product at that element. -/
theorem sum_eq_mm {n k p : Nat} (A : Arr n k) (B : Arr k p) (i : (⟨2, ![n, p]⟩ : Shape).Idx)
    (l : Fin k → (⟨2, ![n, k]⟩ : Shape).Idx) (r : Fin k → (⟨2, ![k, p]⟩ : Shape).Idx)
    (hl : ∀ d, l d = ix2 (i 0) d) (hr : ∀ d, r d = ix2 d (i 1)) :
    ∑ d : Fin k, A (l d) * B (r d) = mm A B i := by
  unfold mm
  exact Finset.sum_congr rfl fun d _ => by rw [hl d, hr d]; rfl

/-- The index functions of a product `[n, k] · [k, p]`, in coordinates. -/
theorem lidx_ix2 {n k p : Nat} (i : (⟨2, ![n, p]⟩ : Shape).Idx) (d : Fin k)
    (l : (⟨2, ![n, k]⟩ : Shape).Idx) (h0 : (l 0).val = (i 0).val) (h1 : (l 1).val = d.val) :
    l = ix2 (i 0) d :=
  funext fun a => Fin.ext (by match a with | ⟨0, _⟩ => exact h0 | ⟨1, _⟩ => exact h1)

theorem ridx_ix2 {n k p : Nat} (i : (⟨2, ![n, p]⟩ : Shape).Idx) (d : Fin k)
    (r : (⟨2, ![k, p]⟩ : Shape).Idx) (h0 : (r 0).val = d.val) (h1 : (r 1).val = (i 1).val) :
    r = ix2 d (i 1) :=
  funext fun a => Fin.ext (by match a with | ⟨0, _⟩ => exact h0 | ⟨1, _⟩ => exact h1)

variable (x0 : Arr 10000 32) (x1 : Arr 10000 10000) (x2 : Arr 32 128) (x3 : Arr 128 256) (x4 : Arr 256 128)

/-! ## The stages, one at a time -/

theorem v0_eq : val_main_v0 (F := Ideal) x0 x2 = mm x0 x2 := by
  funext i
  exact (val_main_v0_apply x0 x2 i).trans
    (sum_eq_mm x0 x2 i _ _ (fun d => lidx_ix2 i d _ rfl rfl) (fun d => ridx_ix2 i d _ rfl rfl))

theorem v1_eq : val_main_v1 (F := Ideal) x0 x2 = tanhA (val_main_v0 (F := Ideal) x0 x2) := by
  funext i
  rw [val_main_v1_apply, Ideal.hostUnary_tanh_def]
  rfl

theorem v2_eq : val_main_v2 (F := Ideal) x0 x1 x2 = mm x1 (val_main_v1 (F := Ideal) x0 x2) := by
  funext i
  exact (val_main_v2_apply x0 x1 x2 i).trans
    (sum_eq_mm x1 _ i _ _ (fun d => lidx_ix2 i d _ rfl rfl) (fun d => ridx_ix2 i d _ rfl rfl))

theorem v3_eq : val_main_v3 (F := Ideal) x0 x1 x2 x3 = mm (val_main_v2 (F := Ideal) x0 x1 x2) x3 := by
  funext i
  exact (val_main_v3_apply x0 x1 x2 x3 i).trans
    (sum_eq_mm _ x3 i _ _ (fun d => lidx_ix2 i d _ rfl rfl) (fun d => ridx_ix2 i d _ rfl rfl))

theorem v4_eq : val_main_v4 (F := Ideal) x0 x1 x2 x3 = tanhA (val_main_v3 (F := Ideal) x0 x1 x2 x3) := by
  funext i
  rw [val_main_v4_apply, Ideal.hostUnary_tanh_def]
  rfl

theorem v5_eq : val_main_v5 (F := Ideal) x0 x1 x2 x3 = mm x1 (val_main_v4 (F := Ideal) x0 x1 x2 x3) := by
  funext i
  exact (val_main_v5_apply x0 x1 x2 x3 i).trans
    (sum_eq_mm x1 _ i _ _ (fun d => lidx_ix2 i d _ rfl rfl) (fun d => ridx_ix2 i d _ rfl rfl))

theorem v6_eq : val_main_v6 (F := Ideal) x0 x1 x2 x3 x4 = mm (val_main_v5 (F := Ideal) x0 x1 x2 x3) x4 := by
  funext i
  exact (val_main_v6_apply x0 x1 x2 x3 x4 i).trans
    (sum_eq_mm _ x4 i _ _ (fun d => lidx_ix2 i d _ rfl rfl) (fun d => ridx_ix2 i d _ rfl rfl))

theorem v7_eq : val_main_v7 (F := Ideal) x0 x1 x2 x3 x4 = tanhA (val_main_v6 (F := Ideal) x0 x1 x2 x3 x4) := by
  funext i
  rw [val_main_v7_apply, Ideal.hostUnary_tanh_def]
  rfl

theorem v8_eq : val_main_v8 (F := Ideal) x0 x1 x2 x3 x4 = mm x1 (val_main_v7 (F := Ideal) x0 x1 x2 x3 x4) := by
  funext i
  exact (val_main_v8_apply x0 x1 x2 x3 x4 i).trans
    (sum_eq_mm x1 _ i _ _ (fun d => lidx_ix2 i d _ rfl rfl) (fun d => ridx_ix2 i d _ rfl rfl))

/-- The first result is the decoder's embedding. -/
theorem v8_zhat : val_main_v8 (F := Ideal) x0 x1 x2 x3 x4 = zhat x0 x1 x2 x3 x4 := by
  rw [v8_eq, v7_eq, v6_eq, v5_eq, v4_eq, v3_eq, v2_eq, v1_eq, v0_eq]
  rfl

/-- The product with the transposed embedding is the Gram matrix: the transposed operand at
    (contracted coordinate, column) is the embedding at (column, contracted coordinate). -/
theorem v10_eq : val_main_v10 (F := Ideal) x0 x1 x2 x3 x4 = gram (val_main_v8 (F := Ideal) x0 x1 x2 x3 x4) := by
  funext i
  rw [val_main_v10_apply]
  unfold gram
  refine Finset.sum_congr rfl fun k _ => ?_
  rw [val_main_v9_apply]
  have hl : lidx_main_v10 i k = ix2 (i 0) k :=
    funext fun a => Fin.ext (by match a with | ⟨0, _⟩ => rfl | ⟨1, _⟩ => rfl)
  have hr : idx_main_v9 (ridx_main_v10 i k) = ix2 (i 1) k :=
    funext fun a => Fin.ext (by match a with | ⟨0, _⟩ => rfl | ⟨1, _⟩ => rfl)
  rw [hl, hr]
  rfl

/-- The pointwise tail `1 / (1 + e^(−x))` is `sigR`. -/
theorem v16_eq : val_main_v16 (F := Ideal) x0 x1 x2 x3 x4
    = fun i => sigR (val_main_v10 (F := Ideal) x0 x1 x2 x3 x4 i) := by
  funext i
  rw [val_main_v16_apply, val_main_v15_apply, val_main_cst_0_apply, val_main_v14_apply, val_main_v13_apply,
    val_main_cst_apply, val_main_v12_apply, val_main_v11_apply]
  generalize val_main_v10 (F := Ideal) x0 x1 x2 x3 x4 i = y
  rfl

/-- The second result is the logistic function of the embedding's Gram matrix. -/
theorem v16_sig : val_main_v16 (F := Ideal) x0 x1 x2 x3 x4
    = fun i => sigR (gram (zhat x0 x1 x2 x3 x4) i) := by
  rw [v16_eq, v10_eq, v8_zhat]

/-! ## The run -/

/-- Every weakly fair execution of the reference terminates with its first result at the decoder's embedding
    of the argument arrays, its second at the logistic function of the embedding's Gram matrix, and the
    arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v8)
          = zhat (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v16)
          = (fun i => sigR (gram (zhat (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))) i))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v8_eq _ _ _ _ _).trans (v8_zhat _ _ _ _ _)),
      (h c).2.1.trans ((val_main_v16_eq _ _ _ _ _).trans (v16_sig _ _ _ _ _)), (h c).2.2⟩)
    (Cert.ReferenceIdeal.Value.run (F := Ideal) m' ρ')

end Cert.GAE.Ref

end
-- ==== Proof.lean ====
/-
  A three-layer graph decoder and the logistic function of its output's Gram matrix.

  Both programs compute, from features x, an adjacency matrix A and weights W4, W5, W6,
      z1 = A · tanh(x · W4),  z2 = A · tanh(z1 · W5),  z = A · tanh(z2 · W6),
  and return z together with s(z · zᵀ), where s is the logistic function.  The kernel does each layer in one
  pipelined call: the first grid point computes the support matrix tanh(features · weights) into a scratch buffer,
  which every point then multiplies by its own block of rows of A; the adjacency matrix is re-stored once in a
  narrower float format, which changes no value where floats are extended reals.  The fourth call keeps zᵀ in its
  scratch and writes, block of rows by block of rows, 1/2 · tanh(1/2 · (z · zᵀ)) + 1/2.  The reference computes the
  same products as whole-array contractions and s(u) as 1 / (1 + exp(−u)).

  A row of a matrix product depends on the left factor's same row only, so the blocks the points write are the blocks
  of the whole-array product; the blocks tile the result arrays.  The two spellings of the logistic function agree at
  every extended real: on a real number this is the identity tanh(u/2) = (1 − e^(−u)) / (1 + e^(−u)), at +∞ both
  are 1 and at −∞ both are 0.  No finiteness of the inputs is used.

  The frames: each call runs through its grid with the scratch holding, from the first point on, the support matrix
  computed there; the fourth call's two input windows read one array, whose ownership is cut in two shares at the
  call's entry and joined again at its exit.  No call writes an argument array.
-/
import proofs.«101579_g4002909520353_cont_8to1_b_697_5_alg».proof.Defs
import proofs.«101579_g4002909520353_cont_8to1_b_697_5_alg».proof.Proof.Gen.Kernel
import proofs.«101579_g4002909520353_cont_8to1_b_697_5_alg».proof.Proof.Gen.KernelIdeal
import proofs.«101579_g4002909520353_cont_8to1_b_697_5_alg».proof.Proof.Gen.ReferenceIdeal
import proofs.«101579_g4002909520353_cont_8to1_b_697_5_alg».proof.Proof.Gen.Pre_finite_inputs
import proofs.«101579_g4002909520353_cont_8to1_b_697_5_alg».proof.Proof.KRun
import proofs.«101579_g4002909520353_cont_8to1_b_697_5_alg».proof.Proof.Result
import proofs.«101579_g4002909520353_cont_8to1_b_697_5_alg».proof.Proof.RefValue
import Idealize.ShloMosaic.Adequacy
import Idealize.ShloMosaic.Init

noncomputable section

namespace Cert.Proof

open Idealize.ShloMosaic Idealize.ShloMosaic.TcCoe Idealize.SL.Sem Cert.GAE

/-- The word-level kernel runs and leaves its arguments unchanged. -/
theorem frame_k : Cert.frame_Kernel := fun m ρ _ => Cert.Kernel.Gen.Hand.frame m ρ

/-- So does the kernel read at exact values. -/
theorem frame_ki : Cert.frame_KernelIdeal := fun m ρ _ => Cert.KernelIdeal.Gen.Hand.frame m ρ

/-- The reference's frame is its run with the results dropped. -/
theorem frame_ri : Cert.frame_ReferenceIdeal := fun m ρ _ =>
  (θ_run Cert.ReferenceIdeal.defs _ _).mono (fun _ h c => (h c).2.2) (Cert.GAE.Ref.ref_run m ρ)

/-- Both programs end with the decoder's output and the logistic function of its Gram matrix: the kernel's in the
    tanh form, the reference's as a quotient, equal at every extended real. -/
theorem algebraic : Cert.algebraic_KernelIdeal_ReferenceIdeal := by
  intro m ρ m' ρ' _ hagree
  refine ⟨_, _, Cert.KernelIdeal.Gen.Hand.value_run m ρ, ?_⟩
  refine (θ_run Cert.ReferenceIdeal.defs _ _).mono (fun _ h c => ?_) (Cert.GAE.Ref.ref_run m' ρ')
  obtain ⟨h8, h16, ha⟩ := h c
  obtain ⟨a0, a1, a2, a3, a4⟩ := hagree c
  refine ⟨?_, ?_, ha⟩
  · rw [h8, a0, a1, a2, a3, a4]
  · rw [h16, a0, a1, a2, a3, a4]
    exact funext fun i => (sig_eq _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
